-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S256x256 : Shape := ⟨2, ![256, 256]⟩
abbrev S256x1 : Shape := ⟨2, ![256, 1]⟩
abbrev S256 : Shape := ⟨1, ![256]⟩
abbrev S256x8192 : Shape := ⟨2, ![256, 8192]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S256x1, .f32⟩
  | .local _ .vmem, ⟨7, _⟩ => ⟨S256x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  inb_S256x256_S256x256_0_0 : ∀ a, (![0, 0] : Fin 2 → Nat) a + S256x256.size a ≤ S256x256.size a
  h_S256x256 : 0 < S256x256.numel
  inb_S8192x256_S8192x256_0_0 : ∀ a, (![0, 0] : Fin 2 → Nat) a + S8192x256.size a ≤ S8192x256.size a
  h_S8192x256 : 0 < S8192x256.numel
  reduces_S256x256_S256 : S256x256.Reduces [1] S256
  shapeCasts_S256_S256x1 : S256.ShapeCasts S256x1
  reduces_S8192x256_S8192 : S8192x256.Reduces [1] S8192
  shapeCasts_S8192x1_S1x8192 : S8192x1.ShapeCasts S1x8192
  transposes_S8192x256_p1_0_S256x8192 : S8192x256.Transposes [1, 0] S256x8192
  broadcasts_S256x1_S256x8192 : S256x1.Broadcasts S256x8192
  broadcasts_S1x8192_S256x8192 : S1x8192.Broadcasts S256x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S256x1_d0_w32 : S256x1.Iotas .tc 32 [0]
  iota_S1x8192_d1_w32 : S1x8192.Iotas .tc 32 [1]
  reduces_S256x8192_S256 : S256x8192.Reduces [1] S256
  shapeCasts_S8192x1_S8192 : S8192x1.ShapeCasts S8192
  reducesTo_S8192_S_d0 : S8192.ReducesTo [0] S_
  h_S_ : 0 < S_.numel
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 83
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S_, .i1⟩
  | .hbm, ⟨49, _⟩ => ⟨S8192, .i1⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .i1⟩
  | .hbm, ⟨61, _⟩ => ⟨S8192, .i1⟩
  | .hbm, ⟨62, _⟩ => ⟨S_, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_cst_9 : Ref sig .tc := ⟨.hbm, 56, rfl⟩
abbrev main_call3_v0 : Ref sig .tc := ⟨.hbm, 57, rfl⟩
abbrev main_call3_v1 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_cst_11 : Ref sig .tc := ⟨.hbm, 62, rfl⟩
abbrev main_call4_v0 : Ref sig .tc := ⟨.hbm, 63, rfl⟩
abbrev main_call4_v1 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_cst_13 : Ref sig .tc := ⟨.hbm, 68, rfl⟩
abbrev main_call5_v0 : Ref sig .tc := ⟨.hbm, 69, rfl⟩
abbrev main_call5_v1 : Ref sig .tc := ⟨.hbm, 70, rfl⟩
abbrev main_v41 : Ref sig .tc := ⟨.hbm, 71, rfl⟩
abbrev main_cst_14 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_15 : Ref sig .tc := ⟨.hbm, 76, rfl⟩
abbrev main_v45 : Ref sig .tc := ⟨.hbm, 77, rfl⟩
abbrev main_v46 : Ref sig .tc := ⟨.hbm, 78, rfl⟩
abbrev main_cst_16 : Ref sig .tc := ⟨.hbm, 79, rfl⟩
abbrev main_v47 : Ref sig .tc := ⟨.hbm, 80, rfl⟩
abbrev main_cst_17 : Ref sig .tc := ⟨.hbm, 81, rfl⟩
abbrev main_v48 : Ref sig .tc := ⟨.hbm, 82, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BitsBody.lean ====
/-
  One grid point of the pairwise-distance kernel as a Hoare triple, and the proof data of its pipeline.

  At point `t` the body reads four blocks — rows [256 t, 256 t + 256) of the feature matrix, the whole feature matrix,
  the same rows of the label column, the whole label row — and stores one block of 256 losses. What the stored block
  holds is named here (`outBlk`) as the body's arithmetic (the skeleton's payloads) of the four blocks read; the
  feature matrix is handed to the kernel twice, so the two windows on it each hold half of it.
-/
import proofs.«132043_j3109556322825_2_alg».proof.Proof.Gen.Kernel.Launch
import proofs.«132043_j3109556322825_2_alg».proof.Proof.Gen.Kernel.Skeleton
import proofs.«132043_j3109556322825_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: unfetched, the
    block index has not moved (the whole-array windows 1 and 3 are fetched once, at the first point). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S256x256 := Rect.unit (s := S256x256) ![0, 0] S256x256.size Facts₀.inb_S256x256_S256x256_0_0
abbrev r1 : Rect S8192x256 := Rect.unit (s := S8192x256) ![0, 0] S8192x256.size Facts₀.inb_S8192x256_S8192x256_0_0
abbrev r2 : Rect S256x1 := Rect.unit (s := S256x1) ![0, 0] S256x1.size Facts₀.inb_S256x1_S256x1_0_0
abbrev r3 : Rect S1x8192 := Rect.unit (s := S1x8192) ![0, 0] S1x8192.size Facts₀.inb_S1x8192_S1x8192_0_0

/-! ## What the body leaves in the output window's buffer -/

/-- The block of 256 losses the body stores, from the four blocks it reads and the point's coordinates. -/
def outBlk (i : grid0.Coords) (x0 : Vec F S256x256 .f32) (x1 : Vec F S8192x256 .f32) (x2 : Vec F S256x1 .i32) (x3 : Vec F S1x8192 .i32) :
    Vec F S256x1 .f32 :=
  View.canon [⟨r2, k0_pay1 (k0_pay2 (View.ld x0 r0) (View.ld x1 r1)) (k0_pay3 (View.ld x2 r2) (View.ld x3 r3))
    (iota .tc S1x8192 32 [1] Facts₀.iota_S1x8192_d1_w32) (k0_pay4 i)⟩]

/-- The one store covers the buffer. -/
theorem cover_out (p0 : Vec F S256x1 .f32) (y : S256x1.Idx) :
    ∃ pc ∈ ([⟨r2, p0⟩] : List (View.Piece (Elt F) S256x1 .f32)), y ∈ pc.1.set :=
  View.cover_of_tiled [⟨r2, p0⟩] S256x1.size (by rfl) y

/-! ## The body's triple -/

set_option maxHeartbeats 4000000 in
/-- The kernel body on whole staging memrefs, the inputs' at read contents and the output's at anything, runs to the
    continuation holding the inputs' as they were and the output's at `outBlk` of the inputs'. -/
theorem sound_kernel (c : Dev nD) (E : Set ℕ) (i : grid0.Coords)
    (arg1 : Memref sig .tc .vmem S256x256 .f32) (harg1 : arg1.IsWhole) (arg2 : Memref sig .tc .vmem S8192x256 .f32) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole)
    (x0 : Vec F S256x256 .f32) (x1 : Vec F S8192x256 .f32) (x2 : Vec F S256x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlk i x0 x1 x2 x3)) -∗ K ⟨⟩))
      ⊢ wp frame (wpE (defs₀ (F := F)) Variants.none c none) E (cc0__triplet_kernel i arg1 harg1 arg2 harg2 arg3 harg3 arg4 harg4 arg5 harg5) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Hand

end
-- ==== Proof.BitsData.lean ====
/-
  The pipeline of the pairwise-distance kernel: its proof data at the contents the region is entered with, and the
  body's obligation at every grid point.

  The feature matrix is the array of two windows (the row blocks and the whole matrix), so each of the two holds one half
  of it; every other window holds its array whole.
-/
import proofs.«132043_j3109556322825_2_alg».proof.Proof.BitsBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The proof data on core `c`: the arrays as the region finds them; after the body at point `t` each input's buffer
    at its block and the output's at the block of losses; the two windows on the feature matrix at half of it each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) :
    (dat0 V c).after 4 t = outBlk (grid0.coords t) (iblk V c 0 t) (iblk V c 1 t) (iblk V c 2 t) (iblk V c 3 t) := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d
theorem before_2 (c : Dev nD) (t : Fin cfg0.N) (d) : (dat0 V c).before 2 t d = iblk V c 2 t :=
  before2_of V (dat0 V c) (A_eq V c 2) (after_2 V c) t d
theorem before_3 (c : Dev nD) (t : Fin cfg0.N) (d) : (dat0 V c).before 3 t d = iblk V c 3 t :=
  before3_of V (dat0 V c) (A_eq V c 3) (after_3 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.BitsRun.lean ====
/-
  The whole run of the pairwise-distance program: the label reshapes, the kernel's region, the reshape, sum and division.

  Between the three stretches core `c` holds every unscoped buffer whole; the region takes the four arrays its windows
  read or write out of them — the feature matrix split in two halves for the two windows on it —, and puts them back at
  its exit with the losses' array at what the write-backs left. The final memory is read off the last stretch.
-/
import proofs.«132043_j3109556322825_2_alg».proof.Proof.BitsData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-- The feature matrix held whole is its two halves. -/
theorem full_halves : fullShare ∈ PCS.op fullShare.left fullShare.right := by
  rw [PosShare.left_op_right]; exact Part.mem_some _

/-- The buffers behind the windows' arrays, one by one: the feature matrix, the label column, the label row, the losses. -/
theorem bigSep_arrs {M : Type} [URA M] (Φ : Ref sig .tc → sProp M) :
    bigSep (Finset.univ.image (Pipeline.arrRef spec0)) Φ = iprop(Φ main_arg0 ∗ Φ main_v0 ∗ Φ main_v1 ∗ Φ main_v2) :=
  bigSep_eq_bigSepL_of_eq [main_arg0, main_v0, main_v1, main_v2] (by decide) (by decide) Φ

/-- ENTRY: the four buffers behind the windows' arrays, each whole, are the pipeline's arrays at contents read off `V`. -/
theorem arrays_of_arrBufs (c : Dev nD) (G : (w : Fin cfg0.W) → Buf (Elt F) ((cfg0.win w).arr.view.loc (c : Thread nD τ)))
    (hG : ∀ w, G w = V c (Pipeline.arrRef spec0 w)) :
    (Pipeline.arrBufs spec0 c (V c) : sProp 𝕄) ⊢ (dat0 V c).arrays G := by
  have e0 := hG 0; have e1 := hG 1; have e2 := hG 2; have e3 := hG 3; have e4 := hG 4
  unfold Pipeline.arrBufs Dat.arrays
  rw [bigSep_W0, bigSep_arrs]
  rw [(arr_whole0 0).set_eq_univ, (arr_whole0 2).set_eq_univ, (arr_whole0 3).set_eq_univ, (arr_whole0 4).set_eq_univ]
  rw [e0, e1, e2, e3, e4]
  have hs : ((((c : Thread nD τ).loc main_arg0) ↦{fullShare} V c main_arg0) : sProp 𝕄)
      ⊢ iprop((((c : Thread nD τ).loc main_arg0) ↦{fullShare.left} V c main_arg0) ∗ (((c : Thread nD τ).loc main_arg0) ↦{fullShare.right} V c main_arg0)) :=
    (pointsTo_share full_halves).1
  iintro ⟨Ha, H0, H1, H2⟩
  ihave Hs := hs $$ Ha
  icases Hs with ⟨HL, HR⟩
  isplitl [HL]; · iexact HL
  isplitl [HR]; · iexact HR
  isplitl [H0]; · iexact H0
  isplitl [H1]; · iexact H1
  iexact H2

/-- EXIT: the pipeline's arrays at contents `G` are the four buffers behind them, each whole, at any valuation that
    reads `G` at them (the two halves of the feature matrix joined). -/
theorem arrBufs_of_arrays (c : Dev nD) (G : (w : Fin cfg0.W) → Buf (Elt F) ((cfg0.win w).arr.view.loc (c : Thread nD τ)))
    (V' : (b : Ref sig .tc) → Buf (Elt F) ((c : Thread nD τ).loc b))
    (hG : ∀ w, G w = V' (Pipeline.arrRef spec0 w)) :
    (dat0 V c).arrays G ⊢ (Pipeline.arrBufs spec0 c V' : sProp 𝕄) := by
  have e0 := hG 0; have e1 := hG 1; have e2 := hG 2; have e3 := hG 3; have e4 := hG 4
  unfold Pipeline.arrBufs Dat.arrays
  rw [bigSep_W0, bigSep_arrs]
  rw [(arr_whole0 0).set_eq_univ, (arr_whole0 2).set_eq_univ, (arr_whole0 3).set_eq_univ, (arr_whole0 4).set_eq_univ]
  rw [e0, e1, e2, e3, e4]
  have hs : iprop((((c : Thread nD τ).loc main_arg0) ↦{fullShare.left} V' main_arg0) ∗ (((c : Thread nD τ).loc main_arg0) ↦{fullShare.right} V' main_arg0))
      ⊢ ((((c : Thread nD τ).loc main_arg0) ↦{fullShare} V' main_arg0) : sProp 𝕄) :=
    (pointsTo_share full_halves).2
  iintro ⟨HL, HR, H0, H1, H2⟩
  isplitl [HL HR]
  · iapply hs
    isplitl [HL]; · iexact HL
    iexact HR
  isplitl [H0]; · iexact H0
  isplitl [H1]; · iexact H1
  iexact H2

end Arrays

section Run

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two label reshapes (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The losses' array as the region leaves it: the write-backs of all 32 points folded. -/
def lossArr (c : Dev nD) : Buf (Elt F) ((c : Thread nD τ).loc main_v2) := (dat0 (V1 m ρ) c).arrAt 4 cfg0.N
/-- At the region's exit: the losses' array at what the write-backs leave, every other buffer as entered. -/
def W2 (c : Dev nD) : Valuation τ sig (Elt F) := Function.update (W1 m ρ c) (Proc.devRef .tc main_v2) (lossArr m ρ c)
abbrev V2 : (c : Dev nD) → (b : Ref sig .tc) → Buf (Elt F) ((c : Thread nD τ).loc b) := fun c b => W2 m ρ c b
/-- After the reshape, the sum and the division (the end). -/
abbrev W3 : Dev nD → Valuation τ sig (Elt F) := fun c => StableHlo.after hostOps1 (W2 m ρ c)

theorem V2_v2 (c : Dev nD) : V2 m ρ c main_v2 = lossArr m ρ c := by
  show Function.update (W1 m ρ c) (Proc.devRef .tc main_v2) (lossArr m ρ c) (Proc.devRef .tc main_v2) = _
  exact Function.update_self _ _ _
theorem V2_of_ne (c : Dev nD) (b : Ref sig .tc) (hb : b ≠ main_v2) : V2 m ρ c b = V1 m ρ c b := by
  show Function.update (W1 m ρ c) (Proc.devRef .tc main_v2) (lossArr m ρ c) (Proc.devRef .tc b) = _
  exact Function.update_of_ne (StableHlo.devRef_ne_of_ne hb) _ _

/-- ENTRY: the unscoped buffers at the entry contents are the pipeline's arrays at them and the rest. -/
theorem entry_split (c : Dev nD) :
    (unscopedBufs c (V1 m ρ c) : sProp 𝕄)
      ⊢ iprop((dat0 (V1 m ρ) c).arrays ((dat0 (V1 m ρ) c).arrAt · 0) ∗ Pipeline.unscopedRest spec0 c (V1 m ρ c)) := by
  rw [Pipeline.unscopedBufs_split₀ cfgs 0 winFacts₀0.arr_unscoped c (V1 m ρ c)]
  exact sep_mono (arrays_of_arrBufs (V1 m ρ) c _ (fun w => rfl)) .rfl

/-- EXIT: the pipeline's arrays at what the region leaves and the rest as entered are the unscoped buffers at the exit contents. -/
theorem exit_join (c : Dev nD) :
    iprop((dat0 (V1 m ρ) c).arrays ((dat0 (V1 m ρ) c).arrAt · cfg0.N) ∗ Pipeline.unscopedRest spec0 c (V1 m ρ c))
      ⊢ (unscopedBufs c (V2 m ρ c) : sProp 𝕄) := by
  rw [Pipeline.unscopedBufs_split₀ cfgs 0 winFacts₀0.arr_unscoped c (V2 m ρ c)]
  refine sep_mono (arrBufs_of_arrays (V1 m ρ) c _ (V2 m ρ c) (fun w => ?_)) (Entails.of_eq ?_)
  · match w with
    | ⟨0, _⟩ => exact (((dat0 (V1 m ρ) c).arrAt_in 0 rfl _).trans (A_eq (V1 m ρ) c 0)).trans (V2_of_ne m ρ c main_arg0 (by decide)).symm
    | ⟨1, _⟩ => exact (((dat0 (V1 m ρ) c).arrAt_in 1 rfl _).trans (A_eq (V1 m ρ) c 1)).trans (V2_of_ne m ρ c main_arg0 (by decide)).symm
    | ⟨2, _⟩ => exact (((dat0 (V1 m ρ) c).arrAt_in 2 rfl _).trans (A_eq (V1 m ρ) c 2)).trans (V2_of_ne m ρ c main_v0 (by decide)).symm
    | ⟨3, _⟩ => exact (((dat0 (V1 m ρ) c).arrAt_in 3 rfl _).trans (A_eq (V1 m ρ) c 3)).trans (V2_of_ne m ρ c main_v1 (by decide)).symm
    | ⟨4, _⟩ => exact (V2_v2 m ρ c).symm
  · unfold Pipeline.unscopedRest
    exact bigSep_congr fun b hb => by
      rw [V2_of_ne m ρ c b (fun e => (Finset.mem_sdiff.mp hb).2 (e ▸ Finset.mem_image.mpr ⟨4, Finset.mem_univ _, rfl⟩))]

end Run

section Launch

variable (m : (ℓ : Loc nD τ sig) → Buf (Elt F) ℓ) (ρ : Dev nD → PrngReg)

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The kernel's region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's 3 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c)
          ∗ (∃ r, prngReg c r) ∗ ∃ W, owes (c : Thread nD τ) (0 : CellTallies nD τ sig Unit) W) ⊢ _ from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Launch

section Frame

variable (m : (ℓ : Loc nD τ sig) → Buf (Elt F) ℓ) (ρ : Dev nD → PrngReg)

/-- No host operation writes an argument, and the region only reads them: the last contents at an argument are the launch's. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := V2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := V2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- THE RUN, read: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W3_main_arg0 m ρ c),
     (h c _ (mem_uc main_arg1 (by decide))).trans (W3_main_arg1 m ρ c)⟩) (run_main m ρ)

/-- THE FRAME: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Frame

end Cert.Kernel.Hand

end
-- ==== Proof.IdealBody.lean ====
/-
  One grid point of the pairwise-distance kernel as a Hoare triple, and the proof data of its pipeline.

  At point `t` the body reads four blocks — rows [256 t, 256 t + 256) of the feature matrix, the whole feature matrix,
  the same rows of the label column, the whole label row — and stores one block of 256 losses. What the stored block
  holds is named here (`outBlk`) as the body's arithmetic (the skeleton's payloads) of the four blocks read; the
  feature matrix is handed to the kernel twice, so the two windows on it each hold half of it.
-/
import proofs.«132043_j3109556322825_2_alg».proof.Proof.Gen.KernelIdeal.Launch
import proofs.«132043_j3109556322825_2_alg».proof.Proof.Gen.KernelIdeal.Skeleton
import proofs.«132043_j3109556322825_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: unfetched, the
    block index has not moved (the whole-array windows 1 and 3 are fetched once, at the first point). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S256x256 := Rect.unit (s := S256x256) ![0, 0] S256x256.size Facts₀.inb_S256x256_S256x256_0_0
abbrev r1 : Rect S8192x256 := Rect.unit (s := S8192x256) ![0, 0] S8192x256.size Facts₀.inb_S8192x256_S8192x256_0_0
abbrev r2 : Rect S256x1 := Rect.unit (s := S256x1) ![0, 0] S256x1.size Facts₀.inb_S256x1_S256x1_0_0
abbrev r3 : Rect S1x8192 := Rect.unit (s := S1x8192) ![0, 0] S1x8192.size Facts₀.inb_S1x8192_S1x8192_0_0

/-! ## What the body leaves in the output window's buffer -/

/-- The block of 256 losses the body stores, from the four blocks it reads and the point's coordinates. -/
def outBlk (i : grid0.Coords) (x0 : Vec F S256x256 .f32) (x1 : Vec F S8192x256 .f32) (x2 : Vec F S256x1 .i32) (x3 : Vec F S1x8192 .i32) :
    Vec F S256x1 .f32 :=
  View.canon [⟨r2, k0_pay1 (k0_pay2 (View.ld x0 r0) (View.ld x1 r1)) (k0_pay3 (View.ld x2 r2) (View.ld x3 r3))
    (iota .tc S1x8192 32 [1] Facts₀.iota_S1x8192_d1_w32) (k0_pay4 i)⟩]

/-- The one store covers the buffer. -/
theorem cover_out (p0 : Vec F S256x1 .f32) (y : S256x1.Idx) :
    ∃ pc ∈ ([⟨r2, p0⟩] : List (View.Piece (Elt F) S256x1 .f32)), y ∈ pc.1.set :=
  View.cover_of_tiled [⟨r2, p0⟩] S256x1.size (by rfl) y

/-! ## The body's triple -/

set_option maxHeartbeats 4000000 in
/-- The kernel body on whole staging memrefs, the inputs' at read contents and the output's at anything, runs to the
    continuation holding the inputs' as they were and the output's at `outBlk` of the inputs'. -/
theorem sound_kernel (c : Dev nD) (E : Set ℕ) (i : grid0.Coords)
    (arg1 : Memref sig .tc .vmem S256x256 .f32) (harg1 : arg1.IsWhole) (arg2 : Memref sig .tc .vmem S8192x256 .f32) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole)
    (x0 : Vec F S256x256 .f32) (x1 : Vec F S8192x256 .f32) (x2 : Vec F S256x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlk i x0 x1 x2 x3)) -∗ K ⟨⟩))
      ⊢ wp frame (wpE (defs₀ (F := F)) Variants.none c none) E (cc0__triplet_kernel i arg1 harg1 arg2 harg2 arg3 harg3 arg4 harg4 arg5 harg5) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Hand

end
-- ==== Proof.IdealData.lean ====
/-
  The pipeline of the pairwise-distance kernel: its proof data at the contents the region is entered with, and the
  body's obligation at every grid point.

  The feature matrix is the array of two windows (the row blocks and the whole matrix), so each of the two holds one half
  of it; every other window holds its array whole.
-/
import proofs.«132043_j3109556322825_2_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The proof data on core `c`: the arrays as the region finds them; after the body at point `t` each input's buffer
    at its block and the output's at the block of losses; the two windows on the feature matrix at half of it each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) :
    (dat0 V c).after 4 t = outBlk (grid0.coords t) (iblk V c 0 t) (iblk V c 1 t) (iblk V c 2 t) (iblk V c 3 t) := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d
theorem before_2 (c : Dev nD) (t : Fin cfg0.N) (d) : (dat0 V c).before 2 t d = iblk V c 2 t :=
  before2_of V (dat0 V c) (A_eq V c 2) (after_2 V c) t d
theorem before_3 (c : Dev nD) (t : Fin cfg0.N) (d) : (dat0 V c).before 3 t d = iblk V c 3 t :=
  before3_of V (dat0 V c) (A_eq V c 3) (after_3 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.IdealRun.lean ====
/-
  The whole run of the pairwise-distance program: the label reshapes, the kernel's region, the reshape, sum and division.

  Between the three stretches core `c` holds every unscoped buffer whole; the region takes the four arrays its windows
  read or write out of them — the feature matrix split in two halves for the two windows on it —, and puts them back at
  its exit with the losses' array at what the write-backs left. The final memory is read off the last stretch.
-/
import proofs.«132043_j3109556322825_2_alg».proof.Proof.IdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-- The feature matrix held whole is its two halves. -/
theorem full_halves : fullShare ∈ PCS.op fullShare.left fullShare.right := by
  rw [PosShare.left_op_right]; exact Part.mem_some _

/-- The buffers behind the windows' arrays, one by one: the feature matrix, the label column, the label row, the losses. -/
theorem bigSep_arrs {M : Type} [URA M] (Φ : Ref sig .tc → sProp M) :
    bigSep (Finset.univ.image (Pipeline.arrRef spec0)) Φ = iprop(Φ main_arg0 ∗ Φ main_v0 ∗ Φ main_v1 ∗ Φ main_v2) :=
  bigSep_eq_bigSepL_of_eq [main_arg0, main_v0, main_v1, main_v2] (by decide) (by decide) Φ

/-- ENTRY: the four buffers behind the windows' arrays, each whole, are the pipeline's arrays at contents read off `V`. -/
theorem arrays_of_arrBufs (c : Dev nD) (G : (w : Fin cfg0.W) → Buf (Elt F) ((cfg0.win w).arr.view.loc (c : Thread nD τ)))
    (hG : ∀ w, G w = V c (Pipeline.arrRef spec0 w)) :
    (Pipeline.arrBufs spec0 c (V c) : sProp 𝕄) ⊢ (dat0 V c).arrays G := by
  have e0 := hG 0; have e1 := hG 1; have e2 := hG 2; have e3 := hG 3; have e4 := hG 4
  unfold Pipeline.arrBufs Dat.arrays
  rw [bigSep_W0, bigSep_arrs]
  rw [(arr_whole0 0).set_eq_univ, (arr_whole0 2).set_eq_univ, (arr_whole0 3).set_eq_univ, (arr_whole0 4).set_eq_univ]
  rw [e0, e1, e2, e3, e4]
  have hs : ((((c : Thread nD τ).loc main_arg0) ↦{fullShare} V c main_arg0) : sProp 𝕄)
      ⊢ iprop((((c : Thread nD τ).loc main_arg0) ↦{fullShare.left} V c main_arg0) ∗ (((c : Thread nD τ).loc main_arg0) ↦{fullShare.right} V c main_arg0)) :=
    (pointsTo_share full_halves).1
  iintro ⟨Ha, H0, H1, H2⟩
  ihave Hs := hs $$ Ha
  icases Hs with ⟨HL, HR⟩
  isplitl [HL]; · iexact HL
  isplitl [HR]; · iexact HR
  isplitl [H0]; · iexact H0
  isplitl [H1]; · iexact H1
  iexact H2

/-- EXIT: the pipeline's arrays at contents `G` are the four buffers behind them, each whole, at any valuation that
    reads `G` at them (the two halves of the feature matrix joined). -/
theorem arrBufs_of_arrays (c : Dev nD) (G : (w : Fin cfg0.W) → Buf (Elt F) ((cfg0.win w).arr.view.loc (c : Thread nD τ)))
    (V' : (b : Ref sig .tc) → Buf (Elt F) ((c : Thread nD τ).loc b))
    (hG : ∀ w, G w = V' (Pipeline.arrRef spec0 w)) :
    (dat0 V c).arrays G ⊢ (Pipeline.arrBufs spec0 c V' : sProp 𝕄) := by
  have e0 := hG 0; have e1 := hG 1; have e2 := hG 2; have e3 := hG 3; have e4 := hG 4
  unfold Pipeline.arrBufs Dat.arrays
  rw [bigSep_W0, bigSep_arrs]
  rw [(arr_whole0 0).set_eq_univ, (arr_whole0 2).set_eq_univ, (arr_whole0 3).set_eq_univ, (arr_whole0 4).set_eq_univ]
  rw [e0, e1, e2, e3, e4]
  have hs : iprop((((c : Thread nD τ).loc main_arg0) ↦{fullShare.left} V' main_arg0) ∗ (((c : Thread nD τ).loc main_arg0) ↦{fullShare.right} V' main_arg0))
      ⊢ ((((c : Thread nD τ).loc main_arg0) ↦{fullShare} V' main_arg0) : sProp 𝕄) :=
    (pointsTo_share full_halves).2
  iintro ⟨HL, HR, H0, H1, H2⟩
  isplitl [HL HR]
  · iapply hs
    isplitl [HL]; · iexact HL
    iexact HR
  isplitl [H0]; · iexact H0
  isplitl [H1]; · iexact H1
  iexact H2

end Arrays

section Run

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two label reshapes (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The losses' array as the region leaves it: the write-backs of all 32 points folded. -/
def lossArr (c : Dev nD) : Buf (Elt F) ((c : Thread nD τ).loc main_v2) := (dat0 (V1 m ρ) c).arrAt 4 cfg0.N
/-- At the region's exit: the losses' array at what the write-backs leave, every other buffer as entered. -/
def W2 (c : Dev nD) : Valuation τ sig (Elt F) := Function.update (W1 m ρ c) (Proc.devRef .tc main_v2) (lossArr m ρ c)
abbrev V2 : (c : Dev nD) → (b : Ref sig .tc) → Buf (Elt F) ((c : Thread nD τ).loc b) := fun c b => W2 m ρ c b
/-- After the reshape, the sum and the division (the end). -/
abbrev W3 : Dev nD → Valuation τ sig (Elt F) := fun c => StableHlo.after hostOps1 (W2 m ρ c)

theorem V2_v2 (c : Dev nD) : V2 m ρ c main_v2 = lossArr m ρ c := by
  show Function.update (W1 m ρ c) (Proc.devRef .tc main_v2) (lossArr m ρ c) (Proc.devRef .tc main_v2) = _
  exact Function.update_self _ _ _
theorem V2_of_ne (c : Dev nD) (b : Ref sig .tc) (hb : b ≠ main_v2) : V2 m ρ c b = V1 m ρ c b := by
  show Function.update (W1 m ρ c) (Proc.devRef .tc main_v2) (lossArr m ρ c) (Proc.devRef .tc b) = _
  exact Function.update_of_ne (StableHlo.devRef_ne_of_ne hb) _ _

/-- ENTRY: the unscoped buffers at the entry contents are the pipeline's arrays at them and the rest. -/
theorem entry_split (c : Dev nD) :
    (unscopedBufs c (V1 m ρ c) : sProp 𝕄)
      ⊢ iprop((dat0 (V1 m ρ) c).arrays ((dat0 (V1 m ρ) c).arrAt · 0) ∗ Pipeline.unscopedRest spec0 c (V1 m ρ c)) := by
  rw [Pipeline.unscopedBufs_split₀ cfgs 0 winFacts₀0.arr_unscoped c (V1 m ρ c)]
  exact sep_mono (arrays_of_arrBufs (V1 m ρ) c _ (fun w => rfl)) .rfl

/-- EXIT: the pipeline's arrays at what the region leaves and the rest as entered are the unscoped buffers at the exit contents. -/
theorem exit_join (c : Dev nD) :
    iprop((dat0 (V1 m ρ) c).arrays ((dat0 (V1 m ρ) c).arrAt · cfg0.N) ∗ Pipeline.unscopedRest spec0 c (V1 m ρ c))
      ⊢ (unscopedBufs c (V2 m ρ c) : sProp 𝕄) := by
  rw [Pipeline.unscopedBufs_split₀ cfgs 0 winFacts₀0.arr_unscoped c (V2 m ρ c)]
  refine sep_mono (arrBufs_of_arrays (V1 m ρ) c _ (V2 m ρ c) (fun w => ?_)) (Entails.of_eq ?_)
  · match w with
    | ⟨0, _⟩ => exact (((dat0 (V1 m ρ) c).arrAt_in 0 rfl _).trans (A_eq (V1 m ρ) c 0)).trans (V2_of_ne m ρ c main_arg0 (by decide)).symm
    | ⟨1, _⟩ => exact (((dat0 (V1 m ρ) c).arrAt_in 1 rfl _).trans (A_eq (V1 m ρ) c 1)).trans (V2_of_ne m ρ c main_arg0 (by decide)).symm
    | ⟨2, _⟩ => exact (((dat0 (V1 m ρ) c).arrAt_in 2 rfl _).trans (A_eq (V1 m ρ) c 2)).trans (V2_of_ne m ρ c main_v0 (by decide)).symm
    | ⟨3, _⟩ => exact (((dat0 (V1 m ρ) c).arrAt_in 3 rfl _).trans (A_eq (V1 m ρ) c 3)).trans (V2_of_ne m ρ c main_v1 (by decide)).symm
    | ⟨4, _⟩ => exact (V2_v2 m ρ c).symm
  · unfold Pipeline.unscopedRest
    exact bigSep_congr fun b hb => by
      rw [V2_of_ne m ρ c b (fun e => (Finset.mem_sdiff.mp hb).2 (e ▸ Finset.mem_image.mpr ⟨4, Finset.mem_univ _, rfl⟩))]

end Run

section Launch

variable (m : (ℓ : Loc nD τ sig) → Buf (Elt F) ℓ) (ρ : Dev nD → PrngReg)

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The kernel's region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's 3 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c)
          ∗ (∃ r, prngReg c r) ∗ ∃ W, owes (c : Thread nD τ) (0 : CellTallies nD τ sig Unit) W) ⊢ _ from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Launch

section Frame

variable (m : (ℓ : Loc nD τ sig) → Buf (Elt F) ℓ) (ρ : Dev nD → PrngReg)

/-- No host operation writes an argument, and the region only reads them: the last contents at an argument are the launch's. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := V2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := V2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- THE RUN, read: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W3_main_arg0 m ρ c),
     (h c _ (mem_uc main_arg1 (by decide))).trans (W3_main_arg1 m ρ c)⟩) (run_main m ρ)

/-- THE FRAME: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Frame

end Cert.KernelIdeal.Hand

end
-- ==== Proof.Spec.lean ====
/-
  The triplet hard-mining loss as a function of the feature matrix and the labels, index by index, on the extended reals.

  For rows r, c of the feature matrix x : [8192, 256]:
    sqn r      = sum over k of x[r,k]^2                       (the squared norm of row r)
    gram r c   = sum over k of x[r,k] * x[c,k]                 (the Gram matrix)
    sqd r c    = max (sqn r + sqn c - 2 * gram r c) 0          (the squared distance, clipped at zero)
    dist r c   = sqrt (sqd r c) where sqd r c > 0, else 0      (the guarded square root)
  A column c is a POSITIVE of row r when the labels agree and c is not r, a NEGATIVE when the labels differ.
  The hardest positive distance of row r is the maximum of dist r c over its positives and 0 when it has none, the
  hardest negative distance the minimum over its negatives and 10^6 when it has none; the row's loss is
  max 0 (margin + hardest positive - hardest negative), and the result the mean of the 8192 losses.

  Two spellings of "when it has none" are stated here, since the two programs differ exactly there:
  * by the VALUE of the masked extremum (it is still the fold's start: -inf for the maximum, +inf for the minimum);
  * by the MASK (no column is a positive; no column is a negative).
  They agree when every distance is a real number, which is what finite features give (the bridge module).
  The float literals stay the words the programs print; none is evaluated here.
-/
import Idealize.ShloMosaic.PureOps
import Idealize.ShloMosaic.PureOps.Ideal

noncomputable section

namespace Cert.TripletSpec

open Idealize.ShloMosaic

/-- The literal words of both programs, read on the extended reals. -/
def w0 : EReal := Ideal.ofBits .f32 0x00000000#32
def w1 : EReal := Ideal.ofBits .f32 0x3F800000#32
def w2 : EReal := Ideal.ofBits .f32 0x40000000#32
def wNeg : EReal := Ideal.ofBits .f32 0xFF800000#32
def wPos : EReal := Ideal.ofBits .f32 0x7F800000#32
def wBig : EReal := Ideal.ofBits .f32 0x49742400#32
def wMargin : EReal := Ideal.ofBits .f32 0x3E99999A#32
def wCount : EReal := Ideal.ofBits .f32 0x46000000#32

variable (x : Fin 8192 → Fin 256 → EReal) (lab : Fin 8192 → BitVec 32)

/-- The squared norm of row `r`. -/
def sqn (r : Fin 8192) : EReal := ∑ k : Fin 256, x r k * x r k
/-- The Gram matrix: row `r` against row `c`. -/
def gram (r c : Fin 8192) : EReal := ∑ k : Fin 256, x r k * x c k
/-- The squared distance between rows `r` and `c`, clipped at zero. -/
def sqd (r c : Fin 8192) : EReal := max (sqn x r + sqn x c - w2 * gram x r c) w0
/-- The distance: the square root where the squared distance is positive (taken of 1 elsewhere, and discarded), else zero. -/
def dist (r c : Fin 8192) : EReal :=
  Scalar.select (Ideal.cmp .ogt (sqd x r c) w0)
    (Ideal.sqrt (Scalar.select (Ideal.cmp .ogt (sqd x r c) w0) (sqd x r c) w1)) w0

/-- Rows `r` and `c` carry the same label. -/
def same (r c : Fin 8192) : BitVec 1 := IntOp.cmpi .eq (lab r) (lab c)
/-- Column `c` is another row than `r`. -/
def other (r c : Fin 8192) : BitVec 1 := BitVec.ofBool (decide (r ≠ c))
/-- Column `c` is a positive of row `r`. -/
def pos (r c : Fin 8192) : BitVec 1 := same lab r c &&& other r c

/-- The masked maximum over the positives, from -inf. -/
def apRaw (r : Fin 8192) : EReal :=
  (Finset.univ : Finset (Fin 8192)).fold max wNeg fun c => Scalar.select (pos lab r c) (dist x r c) wNeg
/-- The masked minimum over the negatives, from +inf, the mask spelt "same label → +inf". -/
def anRawK (r : Fin 8192) : EReal :=
  (Finset.univ : Finset (Fin 8192)).fold min wPos fun c => Scalar.select (same lab r c) wPos (dist x r c)
/-- The same minimum, the mask spelt "different label → the distance". -/
def anRawR (r : Fin 8192) : EReal :=
  (Finset.univ : Finset (Fin 8192)).fold min wPos fun c => Scalar.select (~~~ same lab r c) (dist x r c) wPos

/-- Some column is a positive of row `r`; some column is a negative. -/
def anyPos (r : Fin 8192) : BitVec 1 := (Finset.univ : Finset (Fin 8192)).fold (· ||| ·) 0#1 fun c => pos lab r c
def anyNeg (r : Fin 8192) : BitVec 1 := (Finset.univ : Finset (Fin 8192)).fold (· ||| ·) 0#1 fun c => ~~~ same lab r c

/-- "None" decided by the extremum's VALUE. -/
def apK (r : Fin 8192) : EReal := Scalar.select (Ideal.cmp .oeq (apRaw x lab r) wNeg) w0 (apRaw x lab r)
def anK (r : Fin 8192) : EReal := Scalar.select (Ideal.cmp .oeq (anRawK x lab r) wPos) wBig (anRawK x lab r)
def lossK (r : Fin 8192) : EReal := max w0 (wMargin + apK x lab r - anK x lab r)
def meanK : EReal := Ideal.div (∑ r : Fin 8192, lossK x lab r) wCount

/-- "None" decided by the MASK. -/
def apR (r : Fin 8192) : EReal := Scalar.select (anyPos lab r) (apRaw x lab r) w0
def anR (r : Fin 8192) : EReal := Scalar.select (anyNeg lab r) (anRawR x lab r) wBig
def lossR (r : Fin 8192) : EReal := max w0 (wMargin + apR x lab r - anR x lab r)
def meanR : EReal := Ideal.div (∑ r : Fin 8192, lossR x lab r) wCount

end Cert.TripletSpec

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.IdealArrays.lean ====
/-
  The arrays the region is entered with and the blocks its windows cut from them, by coordinates, at the ideal instance.

  The feature matrix reaches the region as launched; the label column [8192, 1] and the label row [1, 8192] are reshapes of
  the label vector. At point t the row windows hold rows [256 t, 256 t + 256) of the matrix and of the label column, the
  whole-array windows hold the matrix and the label row; the output's 32 blocks of 256 rows tile the losses' array.
-/
import proofs.«132043_j3109556322825_2_alg».proof.Proof.IdealRun
import proofs.«132043_j3109556322825_2_alg».proof.Proof.Spec
import proofs.«132043_j3109556322825_2_alg».proof.Proof.LibLayout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Core `c`'s feature matrix and labels at launch, by coordinates. -/
def featOf (c : Dev nD) : Fin 8192 → Fin 256 → EReal := fun r k => m ((c : Thread nD τ).loc main_arg0) (ix2 r k)
def labOf (c : Dev nD) : Fin 8192 → BitVec 32 := fun r => m ((c : Thread nD τ).loc main_arg1) (ix1 r)

/-! ## The arrays the region is entered with -/

theorem V1_arg0 (c : Dev nD) : V1 m ρ c main_arg0 = m ((c : Thread nD τ).loc main_arg0) := by
  show StableHlo.after hostOps0 (W0 m ρ c) (Proc.devRef .tc main_arg0) = _
  after_results

theorem V1_v0 (c : Dev nD) : V1 m ρ c main_v0 = shapeCast S8192x1 (m ((c : Thread nD τ).loc main_arg1)) Facts₀.shapeCasts_S8192_S8192x1 := by
  show StableHlo.after hostOps0 (W0 m ρ c) (Proc.devRef .tc main_v0) = _
  after_results; rfl

theorem V1_v1 (c : Dev nD) : V1 m ρ c main_v1 = shapeCast S1x8192 (m ((c : Thread nD τ).loc main_arg1)) Facts₀.shapeCasts_S8192_S1x8192 := by
  show StableHlo.after hostOps0 (W0 m ρ c) (Proc.devRef .tc main_v1) = _
  after_results; rfl

/-! ## The printed index maps over the grid -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- Row `p` of the block of point `t`, as a row of the whole matrix. -/
def rowOf (t : Fin cfg0.N) (p : Fin 256) : Fin 8192 :=
  ⟨256 * t.val + p.val, by have h : t.val < 32 := lt_of_lt_of_eq t.isLt N_0; have := p.isLt; omega⟩

/-! ## The four blocks the body reads at point `t`, by coordinates -/

theorem iblk0_apply (c : Dev nD) (t : Fin cfg0.N) (p k : Fin 256) :
    iblk (V1 m ρ) c 0 t (ix2 p k) = featOf m c (rowOf t p) k := by
  obtain ⟨e0, e1, -⟩ := idx_facts t
  show V1 m ρ c main_arg0 (((cfg0.win 0).blk t).view.emb (ix2 p k)) = m ((c : Thread nD τ).loc main_arg0) (ix2 (rowOf t p) k)
  rw [V1_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 256 + 1 * k.val = k.val; omega

theorem iblk1_apply (c : Dev nD) (t : Fin cfg0.N) (r : Fin 8192) (k : Fin 256) :
    iblk (V1 m ρ) c 1 t (ix2 r k) = featOf m c r k := by
  obtain ⟨-, -, e0, e1, -⟩ := idx_facts t
  show V1 m ρ c main_arg0 (((cfg0.win 1).blk t).view.emb (ix2 r k)) = m ((c : Thread nD τ).loc main_arg0) (ix2 r k)
  rw [V1_arg0]
  refine congrArg _ (funext fun a => Fin.ext ?_)
  match a with
  | ⟨0, _⟩ => show win0_1.index t (0 : Fin 2) * 8192 + 1 * r.val = r.val; omega
  | ⟨1, _⟩ => show win0_1.index t (1 : Fin 2) * 256 + 1 * k.val = k.val; omega

theorem iblk2_apply (c : Dev nD) (t : Fin cfg0.N) (p : Fin 256) :
    iblk (V1 m ρ) c 2 t (ix2 p (0 : Fin 1)) = labOf m c (rowOf t p) := by
  obtain ⟨-, -, -, -, e0, e1, -⟩ := idx_facts t
  show V1 m ρ c main_v0 (((cfg0.win 2).blk t).view.emb (ix2 p (0 : Fin 1))) = m ((c : Thread nD τ).loc main_arg1) (ix1 (rowOf t p))
  rw [V1_v0]
  refine (congrArg _ (funext fun a => Fin.ext ?_)).trans (Cert.LibLayout.shapeCast_a_a1_apply _ _ (rowOf t p) (0 : Fin 1))
  match a with
  | ⟨0, _⟩ => show win0_2.index t (0 : Fin 2) * 256 + 1 * p.val = 256 * t.val + p.val; omega
  | ⟨1, _⟩ => show win0_2.index t (1 : Fin 2) * 1 + 1 * 0 = 0; omega

theorem iblk3_apply (c : Dev nD) (t : Fin cfg0.N) (q : Fin 8192) :
    iblk (V1 m ρ) c 3 t (ix2 (0 : Fin 1) q) = labOf m c q := by
  obtain ⟨-, -, -, -, -, -, e0, e1, -⟩ := idx_facts t
  show V1 m ρ c main_v1 (((cfg0.win 3).blk t).view.emb (ix2 (0 : Fin 1) q)) = m ((c : Thread nD τ).loc main_arg1) (ix1 q)
  rw [V1_v1]
  refine (congrArg _ (funext fun a => Fin.ext ?_)).trans (shapeCast_a_1a_apply _ _ (0 : Fin 1) q)
  match a with
  | ⟨0, _⟩ => show win0_3.index t (0 : Fin 2) * 1 + 1 * 0 = 0; omega
  | ⟨1, _⟩ => show win0_3.index t (1 : Fin 2) * 8192 + 1 * q.val = q.val; omega

/-! ## The write-backs tile the losses' array -/

/-- An index of the losses' array is in point `t`'s block iff each coordinate is in the block's range on its axis. -/
theorem mem_blk4 (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v2).slice (win0_4.rect t)).set ↔ _
  rw [View.set_slice_whole, Rect.mem_set_unit]
  exact Iff.rfl

/-- Every row of the losses' array is written back by the point of its block of 256 rows. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  let t : Fin cfg0.N := ⟨(i 0).val / 256, by rw [show cfg0.N = 32 from N_0]; omega⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256
              have ht : t.val = (i 0).val / 256 := rfl
              omega
  | ⟨1, _⟩ => show win0_4.index t (1 : Fin 2) * 1 ≤ (i 1).val ∧ (i 1).val < win0_4.index t (1 : Fin 2) * 1 + 1; omega

end Cert.KernelIdeal.Hand

end
-- ==== Proof.IdealBlock.lean ====
/-
  What one grid point of the kernel stores, read entry by entry.

  At point `t` the kernel's arithmetic is applied to four blocks: rows [256 t, 256 t + 256) of the feature matrix, the whole
  feature matrix, the same rows of the label column and the whole label row. Read at coordinates:
  * the distance block at (p, c) is the guarded square root of the clipped
    |row p of the block|^2 + |row c|^2 - 2 <row p of the block, row c>:
    the two squared norms are row sums of squares, laid as a column and as a row and repeated across the block, and the
    inner products are the matrix product with the transposed matrix;
  * the same-label block at (p, c) compares the label of the block's row p with the label of column c;
  * the row-number test compares 256 t + p with c on 32-bit words (both are below 8192, so the words do not wrap);
  * the two row reductions are folds of max from -inf and of min from +inf over the 8192 columns.
  So entry p of the stored block is the specification's loss of row 256 t + p, in the form that decides "no positive" and
  "no negative" by the value of the masked extremum.
-/
import proofs.«132043_j3109556322825_2_alg».proof.Proof.IdealBody
import proofs.«132043_j3109556322825_2_alg».proof.Proof.Spec
import proofs.«132043_j3109556322825_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.LibLayout

/-! ## Two layout readings -/

/-- The minimum over the second axis of a matrix of extended reals, read at row `n`: the fold of `min` over the row
    from the accumulator's value. -/
theorem multiReduction_min_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.minimumf.neutral FTy.f32 hφ)
    (n : Fin a) :
    multiReduction .minimumf [1] ⟨1, ![a]⟩ src acc h hφ hacc (ix1 n)
      = (Finset.univ : Finset (Fin b)).fold min (Ideal.ofBits .f32 acc) (fun k => src (ix2 n k)) := by
  rw [multiReduction_minimumf_eq_fold]
  refine (h.fold_filter_drop_single _ _ src (ix1 n)).trans ?_
  refine congrArg (Finset.fold min (Ideal.ofBits .f32 acc) · Finset.univ) (funext fun k => ?_)
  exact congrArg src (funext fun ax => Fin.ext (by match ax with | ⟨0, _⟩ => rfl | ⟨1, _⟩ => rfl))

/-- A column `[a, 1]` cast to the row `[1, a]` reads, at `(u, i)`, the column at `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu]; omega)

theorem sqrt_apply {s : Shape} {φ : FTy} (a : FVec Ideal s φ) (i : s.Idx) : sqrt a i = Ideal.sqrt (a i) := rfl

/-! ## The distances -/

/-- A matrix's squared row norms, laid as a column and repeated along the rows of `[a, n]`. -/
theorem rowNorms_col_apply {a b n : ℕ} (x : FVec Ideal ⟨2, ![a, b]⟩ .f32) (hr : (⟨2, ![a, b]⟩ : Shape).Reduces [1] ⟨1, ![a]⟩)
    (hφ : FKind.Formats FTy.f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) (p : Fin a) (c : Fin n) :
    broadcastTo ⟨2, ![a, n]⟩ (shapeCast ⟨2, ![a, 1]⟩ (multiReduction .add [1] ⟨1, ![a]⟩ (mulf x x) 0x00000000#32 hr hφ hacc) hc) hb (ix2 p c)
      = ∑ k : Fin b, x (ix2 p k) * x (ix2 p k) :=
  (broadcastTo_a1_ab_apply _ hb p c).trans ((shapeCast_a_a1_apply _ hc p 0).trans (sum_rows_apply (mulf x x) hr hφ hacc p))

/-- The same norms laid as a row and repeated down the rows of `[m, a]`. -/
theorem rowNorms_row_apply {a b m : ℕ} (x : FVec Ideal ⟨2, ![a, b]⟩ .f32) (hr : (⟨2, ![a, b]⟩ : Shape).Reduces [1] ⟨1, ![a]⟩)
    (hφ : FKind.Formats FTy.f32) (hacc : (0x00000000#32 : BitVec 32) = 0x00000000#32)
    (hc : (⟨1, ![a]⟩ : Shape).ShapeCasts ⟨2, ![a, 1]⟩) (hc' : (⟨2, ![a, 1]⟩ : Shape).ShapeCasts ⟨2, ![1, a]⟩)
    (hb : (⟨2, ![1, a]⟩ : Shape).Broadcasts ⟨2, ![m, a]⟩) (p : Fin m) (c : Fin a) :
    broadcastTo ⟨2, ![m, a]⟩ (shapeCast ⟨2, ![1, a]⟩ (shapeCast ⟨2, ![a, 1]⟩
        (multiReduction .add [1] ⟨1, ![a]⟩ (mulf x x) 0x00000000#32 hr hφ hacc) hc) hc') hb (ix2 p c)
      = ∑ k : Fin b, x (ix2 c k) * x (ix2 c k) :=
  (broadcastTo_1b_ab_apply _ hb p c).trans ((shapeCast_a1_1a_apply _ hc' 0 c).trans
    ((shapeCast_a_a1_apply _ hc c 0).trans (sum_rows_apply (mulf x x) hr hφ hacc c)))

/-- The product of the row block with the transposed matrix: entry `(p, c)` is the inner product of row `p` of the
    block with row `c` of the matrix. -/
theorem gram_apply (x0 : FVec Ideal S256x256 .f32) (x1 : FVec Ideal S8192x256 .f32)
    (ht : S8192x256.Transposes [1, 0] S256x8192) (p : Fin 256) (c : Fin 8192) :
    matmul dot_S256x256_S256x8192_S256x8192_1_0_0_1_n_n none x0 (transpose S256x8192 [1, 0] x1 ht)
        (constant (F := Ideal) S256x8192 .f32 0x00000000#32) (ix2 p c)
      = ∑ k : Fin 256, x0 (ix2 p k) * x1 (ix2 c k) := by
  refine (matmul_rows_cols_apply dot_S256x256_S256x8192_S256x8192_1_0_0_1_n_n rfl rfl rfl rfl (fun _ _ => rfl) (fun _ _ => rfl)
    none x0 _ p c).trans ?_
  refine Finset.sum_congr rfl fun k _ => ?_
  rw [transpose_ix2_apply x1 ht k c]

/-- The distance block: with the row block holding rows `ρ p` of the feature matrix and the whole block all of it, entry
    `(p, c)` is the distance between rows `ρ p` and `c`. -/
theorem k0_pay2_apply (feat : Fin 8192 → Fin 256 → EReal) (ρ : Fin 256 → Fin 8192)
    (x0 : Vec Ideal S256x256 .f32) (x1 : Vec Ideal S8192x256 .f32)
    (h0 : ∀ (p : Fin 256) (k : Fin 256), x0 (ix2 p k) = feat (ρ p) k) (h1 : ∀ (r : Fin 8192) (k : Fin 256), x1 (ix2 r k) = feat r k)
    (p : Fin 256) (c : Fin 8192) :
    k0_pay2 (F := Ideal) x0 x1 (ix2 p c) = Cert.TripletSpec.dist feat (ρ p) c := by
  unfold k0_pay2
  simp only [select_apply, cmpf_apply, maximumf_apply, subf_apply, addf_apply, mulf_apply, broadcast_apply, sqrt_apply]
  rw [rowNorms_col_apply, rowNorms_row_apply, gram_apply]
  simp only [h0, h1]
  rfl

/-! ## The label tests -/

theorem cmpi_apply {s : Shape} {w : ℕ} (q : CmpIPredicate) (a b : IVec s w) (i : s.Idx) : cmpi q a b i = IntOp.cmpi q (a i) (b i) := rfl
theorem andi_apply {s : Shape} {w : ℕ} (a b : IVec s w) (i : s.Idx) : andi a b i = a i &&& b i := rfl
theorem xori_apply {s : Shape} {w : ℕ} (a b : IVec s w) (i : s.Idx) : xori a b i = a i ^^^ b i := rfl
theorem addi_apply {s : Shape} {w : ℕ} (a b : IVec s w) (i : s.Idx) : addi a b i = a i + b i := rfl

/-- The same-label block: entry `(p, c)` compares the label of the block's row `p` with the label of column `c`. -/
theorem k0_pay3_apply (x2 : Vec Ideal S256x1 .i32) (x3 : Vec Ideal S1x8192 .i32) (p : Fin 256) (c : Fin 8192) :
    k0_pay3 (F := Ideal) x2 x3 (ix2 p c) = IntOp.cmpi .eq (x2 (ix2 p (0 : Fin 1))) (x3 (ix2 (0 : Fin 1) c)) := by
  unfold k0_pay3
  simp only [cmpi_apply]
  rw [shapeCast_self, shapeCast_self, broadcastTo_a1_ab_apply, broadcastTo_1b_ab_apply]

/-- The row-number block: entry `(p, c)` is the word of 256 times the point's coordinate plus `p`. -/
theorem k0_pay4_apply (i : grid0.Coords) (p : Fin 256) (c : Fin 8192) :
    k0_pay4 i (ix2 p c) = BitVec.ofNat 32 (i 0).val * 256#32 + BitVec.ofNat 32 p.val := by
  unfold k0_pay4
  simp only []
  rw [broadcastTo_a1_ab_apply, addi_apply, broadcast_apply, iota_single_apply]
  rfl

/-- The test "column `c` is another row than row `256 t + p`", as the kernel computes it on 32-bit words. -/
theorem other_word (t : Fin 32) (n : ℕ) (hn : n = t.val) (p : Fin 256) (c : Fin 8192) :
    IntOp.cmpi .eq (BitVec.ofNat 32 n * 256#32 + BitVec.ofNat 32 p.val) (BitVec.ofNat 32 c.val) ^^^ 1#1
      = Cert.TripletSpec.other ⟨256 * t.val + p.val, by omega⟩ c := by
  subst hn
  have e : BitVec.ofNat 32 t.val * 256#32 + BitVec.ofNat 32 p.val = BitVec.ofNat 32 (256 * t.val + p.val) := by
    apply BitVec.eq_of_toNat_eq
    simp only [BitVec.toNat_add, BitVec.toNat_mul, BitVec.toNat_ofNat]
    omega
  rw [e]
  unfold Cert.TripletSpec.other IntOp.cmpi
  by_cases h : 256 * t.val + p.val = c.val
  · have h' : (⟨256 * t.val + p.val, by omega⟩ : Fin 8192) = c := Fin.ext h
    simp [h, h']
  · have h' : (⟨256 * t.val + p.val, by omega⟩ : Fin 8192) ≠ c := fun e => h (congrArg Fin.val e)
    have hne : BitVec.ofNat 32 (256 * t.val + p.val) ≠ BitVec.ofNat 32 c.val := fun e => h (by
      have := congrArg BitVec.toNat e
      simp only [BitVec.toNat_ofNat] at this
      omega)
    have hb : (BitVec.ofNat 32 (256 * t.val + p.val) == BitVec.ofNat 32 c.val) = false := beq_eq_false_iff_ne.mpr hne
    rw [hb]
    simp [h']

/-! ## The row losses -/

theorem min_rows_apply {a b : ℕ} (src : FVec Ideal ⟨2, ![a, b]⟩ .f32)
    (h : (⟨2, ![a, b]⟩ : Shape).Reduces [1] ⟨1, ![a]⟩) (hφ : FKind.Formats FTy.f32)
    (hacc : (0x7F800000#32 : BitVec 32) = 0x7F800000#32) (n : Fin a) :
    multiReduction .minimumf [1] ⟨1, ![a]⟩ src 0x7F800000#32 h hφ hacc (ix1 n)
      = (Finset.univ : Finset (Fin b)).fold min (Ideal.ofBits .f32 0x7F800000#32) (fun k => src (ix2 n k)) :=
  multiReduction_min_rows src 0x7F800000#32 h hφ hacc n

/-- The loss block: with row `p` of the distance block the distances of row `r`, row `p` of the same-label block its label
    tests, and the row-number test its "another row" test, entry `p` is the loss of row `r` in the kernel's form. -/
theorem k0_pay1_apply (feat : Fin 8192 → Fin 256 → EReal) (lab : Fin 8192 → BitVec 32) (r : Fin 8192)
    (v27 : FVec Ideal S256x8192 .f32) (v34 : IVec S256x8192 1) (v39 : IVec S1x8192 32) (v40 : IVec S256x8192 32) (p : Fin 256)
    (h27 : ∀ c : Fin 8192, v27 (ix2 p c) = Cert.TripletSpec.dist feat r c)
    (h34 : ∀ c : Fin 8192, v34 (ix2 p c) = Cert.TripletSpec.same lab r c)
    (hoth : ∀ c : Fin 8192, IntOp.cmpi .eq (v40 (ix2 p c)) (v39 (ix2 (0 : Fin 1) c)) ^^^ 1#1 = Cert.TripletSpec.other r c) :
    k0_pay1 (F := Ideal) v27 v34 v39 v40 (ix2 p (0 : Fin 1)) = Cert.TripletSpec.lossK feat lab r := by
  -- the loss from any two rows of masked distances that are the specification's
  have key : ∀ (f g : Fin 8192 → EReal),
      (∀ c, f c = Scalar.select (Cert.TripletSpec.pos lab r c) (Cert.TripletSpec.dist feat r c) Cert.TripletSpec.wNeg) →
      (∀ c, g c = Scalar.select (Cert.TripletSpec.same lab r c) Cert.TripletSpec.wPos (Cert.TripletSpec.dist feat r c)) →
      max (Ideal.ofBits .f32 0x00000000#32)
        (Ideal.ofBits .f32 0x3E99999A#32
          + Scalar.select (Ideal.cmp .oeq (Finset.fold max (Ideal.ofBits .f32 0xFF800000#32) f Finset.univ) (Ideal.ofBits .f32 0xFF800000#32))
              (Ideal.ofBits .f32 0x00000000#32) (Finset.fold max (Ideal.ofBits .f32 0xFF800000#32) f Finset.univ)
          - Scalar.select (Ideal.cmp .oeq (Finset.fold min (Ideal.ofBits .f32 0x7F800000#32) g Finset.univ) (Ideal.ofBits .f32 0x7F800000#32))
              (Ideal.ofBits .f32 0x49742400#32) (Finset.fold min (Ideal.ofBits .f32 0x7F800000#32) g Finset.univ))
        = Cert.TripletSpec.lossK feat lab r := by
    intro f g hf hg
    rw [funext hf, funext hg]
    rfl
  unfold k0_pay1
  rw [maximumf_apply, subf_apply, addf_apply, select_apply, select_apply, cmpf_apply, cmpf_apply]
  repeat rw [broadcast_apply]
  rw [shapeCast_a_a1_apply, shapeCast_a_a1_apply, max_rows_apply, min_rows_apply]
  refine key _ _ (fun c => ?_) (fun c => ?_)
  · rw [select_apply, andi_apply, xori_apply, cmpi_apply, constantI_apply, broadcast_apply, broadcastTo_1b_ab_apply, h27, h34, hoth]
    rfl
  · rw [select_apply, broadcast_apply, h27, h34]
    rfl

/-! ## The stored block -/

/-- At point `t`, with the four blocks read holding rows `[256 t, 256 t + 256)` of the features, all the features, the
    same rows of the labels and all the labels, entry `p` of the stored block is the loss of row `256 t + p`. -/
theorem outBlk_apply (t : Fin 32) (i : grid0.Coords) (hi : (i 0).val = t.val) (feat : Fin 8192 → Fin 256 → EReal)
    (lab : Fin 8192 → BitVec 32)
    (x0 : Vec Ideal S256x256 .f32) (x1 : Vec Ideal S8192x256 .f32) (x2 : Vec Ideal S256x1 .i32) (x3 : Vec Ideal S1x8192 .i32)
    (h0 : ∀ (p : Fin 256) (k : Fin 256), x0 (ix2 p k) = feat ⟨256 * t.val + p.val, by omega⟩ k)
    (h1 : ∀ (r : Fin 8192) (k : Fin 256), x1 (ix2 r k) = feat r k)
    (h2 : ∀ p : Fin 256, x2 (ix2 p (0 : Fin 1)) = lab ⟨256 * t.val + p.val, by omega⟩)
    (h3 : ∀ c : Fin 8192, x3 (ix2 (0 : Fin 1) c) = lab c) (p : Fin 256) :
    outBlk (F := Ideal) i x0 x1 x2 x3 (ix2 p (0 : Fin 1))
      = Cert.TripletSpec.lossK feat lab ⟨256 * t.val + p.val, by omega⟩ := by
  have hz : (![0, 0] : Fin 2 → Nat) = fun _ => 0 := funext fun a => by match a with | ⟨0, _⟩ => rfl | ⟨1, _⟩ => rfl
  unfold outBlk
  rw [View.canon_unit_zero hz]
  rw [View.ld_unit_zero hz, View.ld_unit_zero hz, View.ld_unit_zero hz, View.ld_unit_zero hz]
  refine k0_pay1_apply feat lab ⟨256 * t.val + p.val, by omega⟩ _ _ _ _ p
    (fun c => k0_pay2_apply feat (fun q => ⟨256 * t.val + q.val, by omega⟩) x0 x1 h0 h1 p c)
    (fun c => (k0_pay3_apply x2 x3 p c).trans (by rw [h2, h3]; rfl))
    (fun c => ?_)
  rw [k0_pay4_apply, iota_single_apply]
  exact other_word t _ hi p c

end Cert.KernelIdeal.Hand

end
-- ==== Proof.IdealFinal.lean ====
/-
  What the pairwise-distance program leaves in its result buffer, at the ideal instance.

  The region's 32 write-backs tile the losses' array: point t writes rows [256 t, 256 t + 256), and each entry it writes
  is the loss of that row as the specification spells it (the kernel's form, "none" decided by the extremum's value).
  The lines after the region reshape the column of losses to a vector, sum it from zero and divide by 8192.
-/
import proofs.«132043_j3109556322825_2_alg».proof.Proof.IdealArrays
import proofs.«132043_j3109556322825_2_alg».proof.Proof.IdealBlock

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The host's sum of all 8192 entries of a vector, from zero. -/
theorem totalSum (v : FVec Ideal S8192 .f32) (i : S_.Idx) :
    Host.reduceAdd v (constant S_ .f32 0x00000000#32) Facts₀.reducesTo_S8192_S_d0 Facts₀.h_S_ i = ∑ r : Fin 8192, v (ix1 r) := by
  simp only [Host.reduceAdd, Ideal.hostReduceAdd_def]
  rw [Ideal.hostReduceAdd_total Facts₀.reducesTo_S8192_S_d0 (fun b => b.elim0) v _ i]
  rw [constant_apply, Ideal.ofBits_zero_f32, zero_add]
  refine (Fintype.sum_equiv ⟨fun j : S8192.Idx => j 0, fun r => ix1 r, fun j => (eq_ix1 j).symm, fun _ => rfl⟩ _ _ fun j => ?_)
  exact congrArg v (eq_ix1 j)

theorem W3_v5 (c : Dev nD) : (W3 m ρ c (Proc.devRef .tc main_v5) : S_.Idx → EReal)
    = Host.divf (F := Ideal) (Host.reduceAdd (F := Ideal) (φ := .f32) (shapeCast S8192 (lossArr m ρ c : S8192x1.Idx → EReal) Facts₀.shapeCasts_S8192x1_S8192)
        (constant (F := Ideal) S_ .f32 0x00000000#32) Facts₀.reducesTo_S8192_S_d0 Facts₀.h_S_) (constant (F := Ideal) S_ .f32 0x46000000#32) := by
  show StableHlo.after hostOps1 (W2 m ρ c) (Proc.devRef .tc main_v5) = _
  after_results
  rw [show W2 m ρ c (Proc.devRef .tc main_v2) = lossArr m ρ c from V2_v2 m ρ c]
  rfl

/-- The mean of a column of 8192 extended reals as the lines after the region compute it. -/
theorem tail_apply (y : S8192x1.Idx → EReal) (i : S_.Idx) :
    Host.divf (F := Ideal) (Host.reduceAdd (F := Ideal) (φ := .f32) (shapeCast S8192 y Facts₀.shapeCasts_S8192x1_S8192)
        (constant (F := Ideal) S_ .f32 0x00000000#32) Facts₀.reducesTo_S8192_S_d0 Facts₀.h_S_) (constant (F := Ideal) S_ .f32 0x46000000#32) i
      = Ideal.div (∑ r : Fin 8192, y (ix2 r (0 : Fin 1))) (Ideal.ofBits .f32 0x46000000#32) := by
  show Ideal.div (Host.reduceAdd (F := Ideal) (φ := .f32) (shapeCast S8192 y Facts₀.shapeCasts_S8192x1_S8192)
        (constant (F := Ideal) S_ .f32 0x00000000#32) Facts₀.reducesTo_S8192_S_d0 Facts₀.h_S_ i) (Ideal.ofBits .f32 0x46000000#32) = _
  rw [totalSum]
  refine congrArg (Ideal.div · _) (Finset.sum_congr rfl fun r _ => ?_)
  exact Cert.LibLayout.shapeCast_a1_a_apply y _ r

/-! ## The losses' array after the region -/

/-- The 8192 row losses as a column. -/
def lossCol (c : Dev nD) : S8192x1.Idx → EReal := fun j => Cert.TripletSpec.lossK (featOf m c) (labOf m c) (j 0)

/-- WHAT POINT `t` WRITES BACK is block `t` of the column of row losses. -/
theorem flushed4_eq (c : Dev nD) (t : Fin cfg0.N) :
    (dat0 (V1 m ρ) c).flushed 4 t = ((cfg0.win 4).blk t).view.read (Elt Ideal) (lossCol m c) := by
  show (cfg0.win 4).cut (grid0.coords t) ((dat0 (V1 m ρ) c).after 4 t) = _
  rw [after_4]
  obtain ⟨-, -, -, -, -, -, -, -, e0, e1, hi⟩ := idx_facts t
  have ht : t.val < 32 := lt_of_lt_of_eq t.isLt N_0
  funext j
  obtain ⟨p, q, rfl⟩ : ∃ (p : Fin 256) (q : Fin 1), j = ix2 p q := ⟨j 0, j 1, eq_ix2 j⟩
  obtain rfl : q = 0 := Subsingleton.elim _ _
  refine (outBlk_apply ⟨t.val, ht⟩ (grid0.coords t) hi (featOf m c) (labOf m c) _ _ _ _
    (fun p k => iblk0_apply m ρ c t p k) (fun r k => iblk1_apply m ρ c t r k)
    (fun p => iblk2_apply m ρ c t p) (fun q => iblk3_apply m ρ c t q) p).trans ?_
  show Cert.TripletSpec.lossK (featOf m c) (labOf m c) _ = Cert.TripletSpec.lossK (featOf m c) (labOf m c) ((((cfg0.win 4).blk t).view.emb (ix2 p (0 : Fin 1))) 0)
  refine congrArg _ (Fin.ext ?_)
  show 256 * t.val + p.val = win0_4.index t (0 : Fin 2) * 256 + 1 * p.val
  omega

/-- THE LOSSES' ARRAY after the region: the column of row losses. -/
theorem lossArr_eq (c : Dev nD) : (lossArr m ρ c : S8192x1.Idx → EReal) = lossCol m c :=
  (dat0 (V1 m ρ) c).arrAt_eq_of_cover 4 (lossCol m c) (fun t _ => flushed4_eq m ρ c t) cover4

/-! ## The result -/

/-- THE RESULT BUFFER at the end: the mean of the row losses, in the kernel's form of the specification. -/
theorem result_eq (c : Dev nD) :
    (W3 m ρ c (Proc.devRef .tc main_v5) : S_.Idx → EReal) = fun _ => Cert.TripletSpec.meanK (featOf m c) (labOf m c) := by
  rw [W3_v5, lossArr_eq]
  funext i
  rw [tail_apply]
  rfl

/-- THE RUN at the ideal instance: the result buffer ends at the mean of the row losses, the arguments as launched. -/
theorem run_value : θ_run defs (onTc (τ := τ) (main (F := Ideal))) ⟨m, fun _ => 0, ρ⟩ (fun r => ∀ c : Dev nD,
      r.2.mem ((c.tc : Thread nD τ).loc main_v5) = (fun _ => Cert.TripletSpec.meanK (featOf m c) (labOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_result m ρ)

end Cert.KernelIdeal.Hand

end
-- ==== Proof.RefOps.lean ====
/-
  The reference program's operations that are not pointwise, each read at coordinates (rows r, c < 8192, features
  k < 256): the two broadcasts that spread a vector over the rows or the columns of the square, a scalar spread
  over the square or over the rows, the row sums of an [8192, 256] array, the product of an [8192, 256] array with its
  own transpose (the Gram matrix), the reductions of a square array along a row by a maximum from its first value,
  a minimum, or a disjunction, the sum of all 8192 entries of a vector, and the comparison of the row counter with
  the column counter as 32-bit words (the complement of the identity matrix).
-/
import proofs.«132043_j3109556322825_2_alg».proof.Defs
import proofs.«132043_j3109556322825_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

variable {α : Type}

/-! ## Broadcasts -/

/-- A vector over the rows, made a column and repeated along each row: entry (r, c) is the vector's entry r. -/
theorem spread_rows (v : S8192.Idx → α) (r c : Fin 8192) :
    broadcastInDim S8192x8192 ![0, 1] bcast_S8192x1_S8192x8192_0_1 (broadcastInDim S8192x1 ![0] bcast_S8192_S8192x1_0 v) (ix2 r c)
      = v (ix1 r) := by
  rw [broadcastInDim_apply _ bcast_S8192x1_S8192x8192_0_1 _ (ix2 r c) (ix2 r (0 : Fin 1)) (fun a => match a with
      | ⟨0, _⟩ => by show r.val = if (8192 : Nat) = 1 then 0 else r.val; rw [if_neg (by decide)]
      | ⟨1, _⟩ => by show 0 = if (1 : Nat) = 1 then 0 else c.val; rw [if_pos rfl]),
    broadcastInDim_apply _ bcast_S8192_S8192x1_0 v (ix2 r (0 : Fin 1)) (ix1 r) (fun a => match a with
      | ⟨0, _⟩ => by show r.val = if (8192 : Nat) = 1 then 0 else r.val; rw [if_neg (by decide)])]

/-- A vector over the rows, made a row and repeated down each column: entry (r, c) is the vector's entry c. -/
theorem spread_cols (v : S8192.Idx → α) (r c : Fin 8192) :
    broadcastInDim S8192x8192 ![0, 1] bcast_S1x8192_S8192x8192_0_1 (broadcastInDim S1x8192 ![1] bcast_S8192_S1x8192_1 v) (ix2 r c)
      = v (ix1 c) := by
  rw [broadcastInDim_apply _ bcast_S1x8192_S8192x8192_0_1 _ (ix2 r c) (ix2 (0 : Fin 1) c) (fun a => match a with
      | ⟨0, _⟩ => by show 0 = if (1 : Nat) = 1 then 0 else r.val; rw [if_pos rfl]
      | ⟨1, _⟩ => by show c.val = if (8192 : Nat) = 1 then 0 else c.val; rw [if_neg (by decide)]),
    broadcastInDim_apply _ bcast_S8192_S1x8192_1 v (ix2 (0 : Fin 1) c) (ix1 c) (fun a => match a with
      | ⟨0, _⟩ => by show c.val = if (8192 : Nat) = 1 then 0 else c.val; rw [if_neg (by decide)])]

/-- A scalar spread over the square is that scalar everywhere. -/
theorem spread_square (v : S_.Idx → α) (i : S8192x8192.Idx) :
    broadcastInDim S8192x8192 ![] bcast_S_S8192x8192 v i = v ix0 :=
  broadcastInDim_apply _ bcast_S_S8192x8192 v i ix0 (fun a => a.elim0)

/-- A scalar spread over the rows is that scalar everywhere. -/
theorem spread_vec (v : S_.Idx → α) (i : S8192.Idx) :
    broadcastInDim S8192 ![] bcast_S_S8192 v i = v ix0 :=
  broadcastInDim_apply _ bcast_S_S8192 v i ix0 (fun a => a.elim0)

/-! ## Sums -/

/-- The host's sum along each row of an [8192, 256] array, from zero: row r's is the sum of its 256 entries. -/
theorem rowSum (y : FVec Ideal S8192x256 .f32) (r : Fin 8192) :
    Host.reduceAdd y (constant S_ .f32 0x00000000#32) reducesTo_S8192x256_S8192_d1 h_S_ (ix1 r) = ∑ k : Fin 256, y (ix2 r k) := by
  simp only [Host.reduceAdd, Ideal.hostReduceAdd_def]
  rw [Ideal.hostReduceAdd_single reducesTo_S8192x256_S8192_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The host's sum of all 8192 entries of a vector, from zero. -/
theorem totalSum (v : FVec Ideal S8192 .f32) (i : S_.Idx) :
    Host.reduceAdd v (constant S_ .f32 0x00000000#32) reducesTo_S8192_S_d0 h_S_ i = ∑ r : Fin 8192, v (ix1 r) := by
  simp only [Host.reduceAdd, Ideal.hostReduceAdd_def]
  rw [Ideal.hostReduceAdd_total reducesTo_S8192_S_d0 (fun b => b.elim0) v _ i]
  rw [constant_apply, Ideal.ofBits_zero_f32, zero_add]
  refine (Fintype.sum_equiv ⟨fun j : S8192.Idx => j 0, fun r => ix1 r, fun j => (eq_ix1 j).symm, fun _ => rfl⟩ _ _ fun j => ?_)
  exact congrArg v (eq_ix1 j)

/-! ## The Gram matrix -/

/-- The host's product of an [8192, 256] array with its own transpose: entry (r, c) is the sum over the 256 features of row r's
    entry times row c's. -/
theorem gramApply (x : FVec Ideal S8192x256 .f32) (r c : Fin 8192) :
    Host.dotGeneral dot_S8192x256_S256x8192_S8192x8192_1_0_0_1_n_n none x (transpose S256x8192 [1, 0] x transposes_S8192x256_S256x8192_1_0) (ix2 r c)
      = ∑ k : Fin 256, x (ix2 r k) * x (ix2 c k) := by
  simp only [Host.dotGeneral]
  rw [Ideal.dotGeneral_apply, ← Equiv.sum_comp (contrEquiv1 dot_S8192x256_S256x8192_S8192x8192_1_0_0_1_n_n 256 rfl rfl).symm]
  refine Finset.sum_congr rfl fun k _ => ?_
  have hk := contrEquiv1_symm_val dot_S8192x256_S256x8192_S8192x8192_1_0_0_1_n_n 256 rfl rfl k
  have el : dot_S8192x256_S256x8192_S8192x8192_1_0_0_1_n_n.lhsIdx (ix2 r c) ((contrEquiv1 dot_S8192x256_S256x8192_S8192x8192_1_0_0_1_n_n 256 rfl rfl).symm k) = ix2 r k :=
    funext fun a => Fin.ext (by
      match a with
      | ⟨0, _⟩ => rfl
      | ⟨1, _⟩ => exact (dot_S8192x256_S256x8192_S8192x8192_1_0_0_1_n_n.lhsIdx_val_of_single rfl _ _).trans hk)
  rw [el]
  refine congrArg (x (ix2 r k) * ·) ?_
  refine transpose_apply [1, 0] x transposes_S8192x256_S256x8192_1_0 _ (ix2 c k) (fun b => ?_)
  match b with
  | ⟨0, _⟩ => exact ((dot_S8192x256_S256x8192_S8192x8192_1_0_0_1_n_n.rhsIdx_val_of_single rfl _ _).trans hk).symm
  | ⟨1, _⟩ => rfl

/-! ## Reductions along a row of the square -/

/-- The index over row r of the reduced vector whose dropped (column) coordinate is k is (r, k). -/
theorem lift_row (h : S8192x8192.Reduces [1] S8192) (r : Fin 8192) (k : Fin (S8192x8192.size 1)) :
    h.lift (ix1 r) k = ix2 r (⟨k.val, k.isLt⟩ : Fin 8192) := by
  funext a; apply Fin.ext
  match a with
  | ⟨0, _⟩ => rfl
  | ⟨1, _⟩ => rfl

/-- The host's reduction of a square array along each row by a commutative and associative operation, from an initial
    scalar: row r's is the fold of the operation over the row's 8192 entries, from the initial value. -/
theorem rowFold (f : α → α → α) [Std.Commutative f] [Std.Associative f] (y : S8192x8192.Idx → α) (init : S_.Idx → α)
    (r : Fin 8192) :
    Host.reduce f y init reducesTo_S8192x8192_S8192_d1 h_S_ (ix1 r)
      = (Finset.univ : Finset (Fin 8192)).fold f (init ix0) (fun c => y (ix2 r c)) := by
  have h : S8192x8192.Reduces [1] S8192 := by decide
  rw [Host.reduce_eq_fold_single f y init reducesTo_S8192x8192_S8192_d1 h h_S_]
  have hf : (y ∘ h.lift (ix1 r)) = fun c : Fin 8192 => y (ix2 r c) := funext fun k => congrArg y (lift_row h r k)
  have h0 : Shape.Idx.first h_S_ = ix0 := funext fun a => a.elim0
  rw [h0]
  exact congrArg (fun g => Finset.fold f (init ix0) g (Finset.univ : Finset (Fin 8192))) hf

/-- A row's maximum, from the value of the word b. -/
theorem rowMax (y : FVec Ideal S8192x8192 .f32) (b : BitVec 32) (r : Fin 8192) :
    Host.reduce FloatOps.maximumf y (constant S_ .f32 b) reducesTo_S8192x8192_S8192_d1 h_S_ (ix1 r)
      = (Finset.univ : Finset (Fin 8192)).fold max (Ideal.ofBits .f32 b) (fun c => y (ix2 r c)) :=
  rowFold FloatOps.maximumf y _ r

/-- A row's minimum, from the value of the word b. -/
theorem rowMin (y : FVec Ideal S8192x8192 .f32) (b : BitVec 32) (r : Fin 8192) :
    Host.reduce FloatOps.minimumf y (constant S_ .f32 b) reducesTo_S8192x8192_S8192_d1 h_S_ (ix1 r)
      = (Finset.univ : Finset (Fin 8192)).fold min (Ideal.ofBits .f32 b) (fun c => y (ix2 r c)) :=
  rowFold FloatOps.minimumf y _ r

/-- A row's disjunction, from false. -/
theorem rowAny (y : IVec S8192x8192 1) (r : Fin 8192) :
    Host.reduce IntOp.ori y (constantI S_ 1 0#1) reducesTo_S8192x8192_S8192_d1 h_S_ (ix1 r)
      = ((Finset.univ : Finset (Fin 8192)).fold (· ||| ·) 0#1 (fun c => y (ix2 r c)) : BitVec 1) :=
  rowFold IntOp.ori y _ r

/-! ## The complement of the identity matrix -/

/-- The row counter (plus the word zero) compared with the column counter as 32-bit words, negated: the counters are
    below 8192, so the words are equal exactly when the coordinates are. -/
theorem offDiag (r c : Fin 8192) :
    noti (cmpi .eq (addi (iotaInDim S8192x8192 32 0) (broadcastInDim S8192x8192 ![] bcast_S_S8192x8192 (constantI S_ 32 0#32)))
      (iotaInDim S8192x8192 32 1)) (ix2 r c) = BitVec.ofBool (decide (r ≠ c)) := by
  show ~~~ (IntOp.cmpi .eq (IntOp.addi (BitVec.ofNat 32 r.val)
    (broadcastInDim S8192x8192 ![] bcast_S_S8192x8192 (constantI S_ 32 0#32) (ix2 r c))) (BitVec.ofNat 32 c.val)) = _
  rw [spread_square]
  show ~~~ (BitVec.ofBool (BitVec.ofNat 32 r.val + 0#32 == BitVec.ofNat 32 c.val)) = _
  rw [BitVec.add_zero]
  have hr := r.isLt
  have hc := c.isLt
  by_cases h : r = c
  · subst h; simp
  · have hne : (BitVec.ofNat 32 r.val == BitVec.ofNat 32 c.val) = false := by
      rw [beq_eq_false_iff_ne]
      intro e
      have e' := congrArg BitVec.toNat e
      simp only [BitVec.toNat_ofNat] at e'
      exact h (Fin.ext (by omega))
    rw [hne]
    simp [h]

end Cert.ReferenceIdeal.RefValue

end
-- ==== Proof.RefStages.lean ====
/-
  The reference program in stages — the squared norms, the clipped squared distances, the guarded square root, the label
  masks, the hardest positive and the hardest negative of each row, the row losses and their mean — each stage a
  function of the feature matrix and the labels, and each read at coordinates as the corresponding entry of the
  specification (the form that decides "no positive" and "no negative" by the masks).
-/
import proofs.«132043_j3109556322825_2_alg».proof.Proof.RefOps
import proofs.«132043_j3109556322825_2_alg».proof.Proof.Spec

noncomputable section

namespace Cert.ReferenceIdeal.RefValue

open Cert.ReferenceIdeal Cert.ReferenceIdeal.Gen Idealize.ShloMosaic Idealize.ShloMosaic.ValueIdx Cert.TripletSpec

/-! ## The stages, for any float values -/

section Stages

variable {F : FTy → Type} [FloatOps F]

/-- The squared norm of every row. -/
def sqnV (x : FVec F S8192x256 .f32) : FVec F S8192 .f32 :=
  Host.reduceAdd (mulf x x) (constant S_ .f32 0x00000000#32) reducesTo_S8192x256_S8192_d1 h_S_

/-- The squared distances, clipped at zero. -/
def sqdV (x : FVec F S8192x256 .f32) : FVec F S8192x8192 .f32 :=
  maximumf (subf (addf (broadcastInDim S8192x8192 ![0, 1] bcast_S8192x1_S8192x8192_0_1 (broadcastInDim S8192x1 ![0] bcast_S8192_S8192x1_0 (sqnV x)))
      (broadcastInDim S8192x8192 ![0, 1] bcast_S1x8192_S8192x8192_0_1 (broadcastInDim S1x8192 ![1] bcast_S8192_S1x8192_1 (sqnV x))))
    (mulf (broadcastInDim S8192x8192 ![] bcast_S_S8192x8192 (constant S_ .f32 0x40000000#32))
      (Host.dotGeneral dot_S8192x256_S256x8192_S8192x8192_1_0_0_1_n_n none x (transpose S256x8192 [1, 0] x transposes_S8192x256_S256x8192_1_0))))
    (broadcastInDim S8192x8192 ![] bcast_S_S8192x8192 (constant S_ .f32 0x00000000#32))

/-- The guarded square root of a square array: the root where an entry is positive (taken of 1 elsewhere, and discarded), zero
    elsewhere. -/
def distOf (q : FVec F S8192x8192 .f32) : FVec F S8192x8192 .f32 :=
  select (cmpf .ogt q (broadcastInDim S8192x8192 ![] bcast_S_S8192x8192 (constant S_ .f32 0x00000000#32)))
    (Host.sqrt (select (cmpf .ogt q (broadcastInDim S8192x8192 ![] bcast_S_S8192x8192 (constant S_ .f32 0x00000000#32))) q
      (broadcastInDim S8192x8192 ![] bcast_S_S8192x8192 (id (constant S_ .f32 0x3F800000#32)))))
    (broadcastInDim S8192x8192 ![] bcast_S_S8192x8192 (id (constant S_ .f32 0x00000000#32)))

/-- The distances: the guarded square root of the squared distances. -/
def distV (x : FVec F S8192x256 .f32) : FVec F S8192x8192 .f32 := distOf (sqdV x)

/-- Row and column carry the same label. -/
def sameV (l : IVec S8192 32) : IVec S8192x8192 1 :=
  cmpi .eq (broadcastInDim S8192x8192 ![0, 1] bcast_S8192x1_S8192x8192_0_1 (broadcastInDim S8192x1 ![0] bcast_S8192_S8192x1_0 l))
    (broadcastInDim S8192x8192 ![0, 1] bcast_S1x8192_S8192x8192_0_1 (broadcastInDim S1x8192 ![1] bcast_S8192_S1x8192_1 l))

/-- Row and column differ. -/
def offDiagV : IVec S8192x8192 1 :=
  noti (cmpi .eq (addi (iotaInDim S8192x8192 32 0) (broadcastInDim S8192x8192 ![] bcast_S_S8192x8192 (constantI S_ 32 0#32))) (iotaInDim S8192x8192 32 1))

/-- The column is a positive of the row. -/
def posV (l : IVec S8192 32) : IVec S8192x8192 1 := andi (sameV l) offDiagV

/-- The column is a negative of the row. -/
def negV (l : IVec S8192 32) : IVec S8192x8192 1 := noti (sameV l)

/-- Each row's maximum of a square array over the columns a mask selects, zero for a row whose mask is empty. -/
def apOf (p : IVec S8192x8192 1) (d : FVec F S8192x8192 .f32) : FVec F S8192 .f32 :=
  select (Host.reduce IntOp.ori p (constantI S_ 1 0#1) reducesTo_S8192x8192_S8192_d1 h_S_)
    (Host.reduce FloatOps.maximumf (select p d (broadcastInDim S8192x8192 ![] bcast_S_S8192x8192 (id (constant S_ .f32 0xFF800000#32))))
      (constant S_ .f32 0xFF800000#32) reducesTo_S8192x8192_S8192_d1 h_S_)
    (broadcastInDim S8192 ![] bcast_S_S8192 (id (constant S_ .f32 0x00000000#32)))

/-- The hardest positive distance of every row, zero for a row without positives. -/
def apV (x : FVec F S8192x256 .f32) (l : IVec S8192 32) : FVec F S8192 .f32 := apOf (posV l) (distV x)

/-- Each row's minimum of a square array over the columns a mask selects, the large fallback for a row whose mask is empty. -/
def anOf (n : IVec S8192x8192 1) (d : FVec F S8192x8192 .f32) : FVec F S8192 .f32 :=
  select (Host.reduce IntOp.ori n (constantI S_ 1 0#1) reducesTo_S8192x8192_S8192_d1 h_S_)
    (Host.reduce FloatOps.minimumf (select n d (broadcastInDim S8192x8192 ![] bcast_S_S8192x8192 (id (constant S_ .f32 0x7F800000#32))))
      (constant S_ .f32 0x7F800000#32) reducesTo_S8192x8192_S8192_d1 h_S_)
    (broadcastInDim S8192 ![] bcast_S_S8192 (id (constant S_ .f32 0x49742400#32)))

/-- The hardest negative distance of every row, the large fallback for a row without negatives. -/
def anV (x : FVec F S8192x256 .f32) (l : IVec S8192 32) : FVec F S8192 .f32 := anOf (negV l) (distV x)

/-- The loss of every row. -/
def lossV (x : FVec F S8192x256 .f32) (l : IVec S8192 32) : FVec F S8192 .f32 :=
  maximumf (broadcastInDim S8192 ![] bcast_S_S8192 (constant S_ .f32 0x00000000#32))
    (subf (addf (broadcastInDim S8192 ![] bcast_S_S8192 (constant S_ .f32 0x3E99999A#32)) (apV x l)) (anV x l))

/-- The mean over the rows of the loss of two vectors of hardest distances. -/
def meanOf (ap an : FVec F S8192 .f32) : FVec F S_ .f32 :=
  Host.divf (Host.reduceAdd (maximumf (broadcastInDim S8192 ![] bcast_S_S8192 (constant S_ .f32 0x00000000#32))
      (subf (addf (broadcastInDim S8192 ![] bcast_S_S8192 (constant S_ .f32 0x3E99999A#32)) ap) an))
    (constant S_ .f32 0x00000000#32) reducesTo_S8192_S_d0 h_S_) (constant S_ .f32 0x46000000#32)

/-- The mean of the row losses. -/
def meanV (x : FVec F S8192x256 .f32) (l : IVec S8192 32) : FVec F S_ .f32 := meanOf (apV x l) (anV x l)

end Stages

/-! ## The stages at coordinates, on the extended reals -/

/-- The feature matrix by coordinates. -/
abbrev rows (x : FVec Ideal S8192x256 .f32) : Fin 8192 → Fin 256 → EReal := fun r k => x (ix2 r k)
/-- The labels by coordinate. -/
abbrev labs (l : IVec S8192 32) : Fin 8192 → BitVec 32 := fun r => l (ix1 r)

variable (x : FVec Ideal S8192x256 .f32) (l : IVec S8192 32)

theorem sqnV_apply (r : Fin 8192) : sqnV x (ix1 r) = sqn (rows x) r := by
  unfold sqnV
  rw [rowSum]
  rfl

theorem sqdV_apply (r c : Fin 8192) : sqdV x (ix2 r c) = sqd (rows x) r c := by
  unfold sqdV
  rw [maximumf_apply, subf_apply, addf_apply, mulf_apply, spread_rows, spread_cols, spread_square, spread_square, gramApply,
    sqnV_apply, sqnV_apply]
  rfl

theorem distV_apply (r c : Fin 8192) : distV x (ix2 r c) = dist (rows x) r c := by
  show Scalar.select (FloatOps.cmpf .ogt (sqdV x (ix2 r c)) (broadcastInDim S8192x8192 ![] bcast_S_S8192x8192 (constant S_ .f32 0x00000000#32) (ix2 r c)))
      (FloatOps.hostUnary .sqrt (Scalar.select (FloatOps.cmpf .ogt (sqdV x (ix2 r c)) (broadcastInDim S8192x8192 ![] bcast_S_S8192x8192 (constant S_ .f32 0x00000000#32) (ix2 r c)))
        (sqdV x (ix2 r c)) (broadcastInDim S8192x8192 ![] bcast_S_S8192x8192 (id (constant S_ .f32 0x3F800000#32)) (ix2 r c))))
      (broadcastInDim S8192x8192 ![] bcast_S_S8192x8192 (id (constant S_ .f32 0x00000000#32)) (ix2 r c)) = _
  rw [spread_square, spread_square, spread_square, sqdV_apply]
  rfl

theorem sameV_apply (r c : Fin 8192) : sameV l (ix2 r c) = same (labs l) r c := by
  show IntOp.cmpi .eq
      (broadcastInDim S8192x8192 ![0, 1] bcast_S8192x1_S8192x8192_0_1 (broadcastInDim S8192x1 ![0] bcast_S8192_S8192x1_0 l) (ix2 r c))
      (broadcastInDim S8192x8192 ![0, 1] bcast_S1x8192_S8192x8192_0_1 (broadcastInDim S1x8192 ![1] bcast_S8192_S1x8192_1 l) (ix2 r c)) = _
  rw [spread_rows, spread_cols]
  rfl

theorem offDiagV_apply (r c : Fin 8192) : offDiagV (ix2 r c) = other r c := offDiag r c

theorem posV_apply (r c : Fin 8192) : posV l (ix2 r c) = pos (labs l) r c := by
  show IntOp.andi (sameV l (ix2 r c)) (offDiagV (ix2 r c)) = _
  rw [sameV_apply, offDiagV_apply]
  rfl

theorem negV_apply (r c : Fin 8192) : negV l (ix2 r c) = ~~~ same (labs l) r c := by
  show ~~~ (sameV l (ix2 r c)) = _
  rw [sameV_apply]

theorem anyPosV_apply (r : Fin 8192) :
    Host.reduce IntOp.ori (posV l) (constantI S_ 1 0#1) reducesTo_S8192x8192_S8192_d1 h_S_ (ix1 r) = anyPos (labs l) r := by
  rw [rowAny, show (fun c => posV l (ix2 r c)) = fun c => pos (labs l) r c from funext fun c => posV_apply l r c]
  rfl

theorem anyNegV_apply (r : Fin 8192) :
    Host.reduce IntOp.ori (negV l) (constantI S_ 1 0#1) reducesTo_S8192x8192_S8192_d1 h_S_ (ix1 r) = anyNeg (labs l) r := by
  rw [rowAny, show (fun c => negV l (ix2 r c)) = fun c => ~~~ same (labs l) r c from funext fun c => negV_apply l r c]
  rfl

theorem apV_apply (r : Fin 8192) : apV x l (ix1 r) = apR (rows x) (labs l) r := by
  show Scalar.select (Host.reduce IntOp.ori (posV l) (constantI S_ 1 0#1) reducesTo_S8192x8192_S8192_d1 h_S_ (ix1 r))
      (Host.reduce FloatOps.maximumf (select (posV l) (distV x) (broadcastInDim S8192x8192 ![] bcast_S_S8192x8192 (id (constant S_ .f32 0xFF800000#32))))
        (constant S_ .f32 0xFF800000#32) reducesTo_S8192x8192_S8192_d1 h_S_ (ix1 r))
      (broadcastInDim S8192 ![] bcast_S_S8192 (id (constant S_ .f32 0x00000000#32)) (ix1 r)) = _
  rw [anyPosV_apply, rowMax, spread_vec]
  have hf : (fun c => select (posV l) (distV x) (broadcastInDim S8192x8192 ![] bcast_S_S8192x8192 (id (constant S_ .f32 0xFF800000#32))) (ix2 r c))
      = fun c => Scalar.select (pos (labs l) r c) (dist (rows x) r c) wNeg := funext fun c => by
    show Scalar.select (posV l (ix2 r c)) (distV x (ix2 r c)) (broadcastInDim S8192x8192 ![] bcast_S_S8192x8192 (id (constant S_ .f32 0xFF800000#32)) (ix2 r c)) = _
    rw [posV_apply, distV_apply, spread_square]
    rfl
  rw [hf]
  rfl

theorem anV_apply (r : Fin 8192) : anV x l (ix1 r) = anR (rows x) (labs l) r := by
  show Scalar.select (Host.reduce IntOp.ori (negV l) (constantI S_ 1 0#1) reducesTo_S8192x8192_S8192_d1 h_S_ (ix1 r))
      (Host.reduce FloatOps.minimumf (select (negV l) (distV x) (broadcastInDim S8192x8192 ![] bcast_S_S8192x8192 (id (constant S_ .f32 0x7F800000#32))))
        (constant S_ .f32 0x7F800000#32) reducesTo_S8192x8192_S8192_d1 h_S_ (ix1 r))
      (broadcastInDim S8192 ![] bcast_S_S8192 (id (constant S_ .f32 0x49742400#32)) (ix1 r)) = _
  rw [anyNegV_apply, rowMin, spread_vec]
  have hf : (fun c => select (negV l) (distV x) (broadcastInDim S8192x8192 ![] bcast_S_S8192x8192 (id (constant S_ .f32 0x7F800000#32))) (ix2 r c))
      = fun c => Scalar.select (~~~ same (labs l) r c) (dist (rows x) r c) wPos := funext fun c => by
    show Scalar.select (negV l (ix2 r c)) (distV x (ix2 r c)) (broadcastInDim S8192x8192 ![] bcast_S_S8192x8192 (id (constant S_ .f32 0x7F800000#32)) (ix2 r c)) = _
    rw [negV_apply, distV_apply, spread_square]
    rfl
  rw [hf]
  rfl

theorem lossV_apply (r : Fin 8192) : lossV x l (ix1 r) = lossR (rows x) (labs l) r := by
  unfold lossV
  rw [maximumf_apply, subf_apply, addf_apply, spread_vec, spread_vec, apV_apply, anV_apply]
  rfl

theorem meanV_apply (i : S_.Idx) : meanV x l i = meanR (rows x) (labs l) := by
  show FloatOps.hostDivf (Host.reduceAdd (lossV x l) (constant S_ .f32 0x00000000#32) reducesTo_S8192_S_d0 h_S_ i)
      (constant S_ .f32 0x46000000#32 i) = _
  rw [totalSum, show (fun r => lossV x l (ix1 r)) = fun r => lossR (rows x) (labs l) r from funext fun r => lossV_apply x l r]
  rfl

/-- The reference's result, as one function of the features and the labels, is the specification's mean (the masks deciding the
    empty cases). -/
theorem meanV_eq : meanV x l = fun _ => meanR (fun r k => x (ix2 r k)) (fun r => l (ix1 r)) :=
  funext fun i => meanV_apply x l i

end Cert.ReferenceIdeal.RefValue

end
-- ==== Proof.RefChunks.lean ====
/-
  The reference program's 81 host operations in six stretches, each read back over ANY contents of the buffers it starts
  from: the stretch that ends at the clipped squared distances (a function of the features), the one that takes their
  guarded square root, the one that builds the two label masks, the two that reduce the distances along each row under a
  mask (the hardest positive, the hardest negative), and the one that averages the row losses. A buffer a stretch does
  not write keeps its contents. Composed, the six give the result buffer after all 81 operations as the staged function
  `meanV` of the two argument buffers.
-/
import proofs.«132043_j3109556322825_2_alg».proof.Defs
import proofs.«132043_j3109556322825_2_alg».proof.Proof.Gen.ReferenceIdeal
import proofs.«132043_j3109556322825_2_alg».proof.Proof.RefStages
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 1 to 17: the squared norms, the Gram matrix, the clipped squared distances. -/
abbrev opsA : List (HloOp τ sig (Elt F)) :=
  [ binary main_arg0 main_arg0 main_v0 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v0 main_cst main_v1 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    unary main_arg0 main_v7 ((transpose S256x8192 [1, 0] · transposes_S8192x256_S256x8192_1_0) : (⟨S8192x256, .f32⟩ : BufTy).Contents (Elt F) → (⟨S256x8192, .f32⟩ : BufTy).Contents (Elt F)),
    binary main_arg0 main_v7 main_v8 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x40000000#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    unary main_cst_1 main_v12 (broadcastInDim S8192x8192 ![] bcast_S_S8192x8192 : (⟨S_, .f32⟩ : BufTy).Contents (Elt F) → (⟨S8192x8192, .f32⟩ : BufTy).Contents (Elt F)),
    binary main_v11 main_v12 main_v13 (maximumf : (⟨S8192x8192, .f32⟩ : BufTy).Contents (Elt F) → (⟨S8192x8192, .f32⟩ : BufTy).Contents (Elt F) → (⟨S8192x8192, .f32⟩ : BufTy).Contents (Elt F)) ]

/-- Operations 18 to 32: the guarded square root. -/
abbrev opsB : List (HloOp τ sig (Elt F)) :=
  [ nullary main_cst_2 (constant S_ .f32 0x00000000#32),
    unary main_cst_2 main_v14 (broadcastInDim S8192x8192 ![] bcast_S_S8192x8192 : (⟨S_, .f32⟩ : BufTy).Contents (Elt F) → (⟨S8192x8192, .f32⟩ : BufTy).Contents (Elt F)),
    binary main_v13 main_v14 main_v15 (cmpf .ogt : (⟨S8192x8192, .f32⟩ : BufTy).Contents (Elt F) → (⟨S8192x8192, .f32⟩ : BufTy).Contents (Elt F) → (⟨S8192x8192, .i1⟩ : BufTy).Contents (Elt F)),
    nullary main_cst_3 (constant S_ .f32 0x00000000#32),
    unary main_cst_3 main_v16 (broadcastInDim S8192x8192 ![] bcast_S_S8192x8192 : (⟨S_, .f32⟩ : BufTy).Contents (Elt F) → (⟨S8192x8192, .f32⟩ : BufTy).Contents (Elt F)),
    binary main_v13 main_v16 main_v17 (cmpf .ogt : (⟨S8192x8192, .f32⟩ : BufTy).Contents (Elt F) → (⟨S8192x8192, .f32⟩ : BufTy).Contents (Elt F) → (⟨S8192x8192, .i1⟩ : BufTy).Contents (Elt F)),
    nullary main_cst_4 (constant S_ .f32 0x3F800000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v17) (TRef.of (T := ⟨S8192x8192, .f32⟩) main_v13) (TRef.of (T := ⟨S8192x8192, .f32⟩) main_call0_v1) (TRef.of (T := ⟨S8192x8192, .f32⟩) main_v18) select,
    unary main_v18 main_v19 (Host.sqrt : (⟨S8192x8192, .f32⟩ : BufTy).Contents (Elt F) → (⟨S8192x8192, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v15) (TRef.of (T := ⟨S8192x8192, .f32⟩) main_v19) (TRef.of (T := ⟨S8192x8192, .f32⟩) main_call1_v1) (TRef.of (T := ⟨S8192x8192, .f32⟩) main_v20) select ]

/-- Operations 33 to 46: the label masks. -/
abbrev opsC : List (HloOp τ sig (Elt F)) :=
  [ unary main_arg1 main_v21 (broadcastInDim S8192x1 ![0] bcast_S8192_S8192x1_0 : (⟨S8192, .i32⟩ : BufTy).Contents (Elt F) → (⟨S8192x1, .i32⟩ : BufTy).Contents (Elt F)),
    unary main_arg1 main_v22 (broadcastInDim S1x8192 ![1] bcast_S8192_S1x8192_1 : (⟨S8192, .i32⟩ : BufTy).Contents (Elt F) → (⟨S1x8192, .i32⟩ : BufTy).Contents (Elt F)),
    unary main_v21 main_v23 (broadcastInDim S8192x8192 ![0, 1] bcast_S8192x1_S8192x8192_0_1 : (⟨S8192x1, .i32⟩ : BufTy).Contents (Elt F) → (⟨S8192x8192, .i32⟩ : BufTy).Contents (Elt F)),
    unary main_v22 main_v24 (broadcastInDim S8192x8192 ![0, 1] bcast_S1x8192_S8192x8192_0_1 : (⟨S1x8192, .i32⟩ : BufTy).Contents (Elt F) → (⟨S8192x8192, .i32⟩ : BufTy).Contents (Elt F)),
    binary main_v23 main_v24 main_v25 (cmpi .eq : (⟨S8192x8192, .i32⟩ : BufTy).Contents (Elt F) → (⟨S8192x8192, .i32⟩ : BufTy).Contents (Elt F) → (⟨S8192x8192, .i1⟩ : BufTy).Contents (Elt F)),
    nullary main_v26 (iotaInDim S8192x8192 32 0),
    nullary main_v27 (iotaInDim S8192x8192 32 1),
    nullary main_c (constantI S_ 32 0#32),
    unary main_c main_v28 (broadcastInDim S8192x8192 ![] bcast_S_S8192x8192 : (⟨S_, .i32⟩ : BufTy).Contents (Elt F) → (⟨S8192x8192, .i32⟩ : BufTy).Contents (Elt F)),
    binary main_v26 main_v28 main_v29 (addi : (⟨S8192x8192, .i32⟩ : BufTy).Contents (Elt F) → (⟨S8192x8192, .i32⟩ : BufTy).Contents (Elt F) → (⟨S8192x8192, .i32⟩ : BufTy).Contents (Elt F)),
    binary main_v29 main_v27 main_v30 (cmpi .eq : (⟨S8192x8192, .i32⟩ : BufTy).Contents (Elt F) → (⟨S8192x8192, .i32⟩ : BufTy).Contents (Elt F) → (⟨S8192x8192, .i1⟩ : BufTy).Contents (Elt F)),
    unary main_v30 main_v31 (noti : (⟨S8192x8192, .i1⟩ : BufTy).Contents (Elt F) → (⟨S8192x8192, .i1⟩ : BufTy).Contents (Elt F)),
    binary main_v25 main_v31 main_v32 (andi : (⟨S8192x8192, .i1⟩ : BufTy).Contents (Elt F) → (⟨S8192x8192, .i1⟩ : BufTy).Contents (Elt F) → (⟨S8192x8192, .i1⟩ : BufTy).Contents (Elt F)),
    unary main_v25 main_v33 (noti : (⟨S8192x8192, .i1⟩ : BufTy).Contents (Elt F) → (⟨S8192x8192, .i1⟩ : BufTy).Contents (Elt F)) ]

/-- Operations 47 to 58: the hardest positive of each row. -/
abbrev opsD : List (HloOp τ sig (Elt F)) :=
  [ nullary main_c_6 (constantI S_ 1 0#1),
    binary main_v32 main_c_6 main_v34 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_cst_7 (constant S_ .f32 0xFF800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v32) (TRef.of (T := ⟨S8192x8192, .f32⟩) main_v20) (TRef.of (T := ⟨S8192x8192, .f32⟩) main_call2_v1) (TRef.of (T := ⟨S8192x8192, .f32⟩) main_v35) select,
    nullary main_cst_8 (constant S_ .f32 0xFF800000#32),
    binary main_v35 main_cst_8 main_v36 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_9 (constant S_ .f32 0x00000000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v34) (TRef.of (T := ⟨S8192, .f32⟩) main_v36) (TRef.of (T := ⟨S8192, .f32⟩) main_call3_v1) (TRef.of (T := ⟨S8192, .f32⟩) main_v37) select ]

/-- Operations 59 to 70: the hardest negative of each row. -/
abbrev opsE : List (HloOp τ sig (Elt F)) :=
  [ nullary main_c_10 (constantI S_ 1 0#1),
    binary main_v33 main_c_10 main_v38 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_cst_11 (constant S_ .f32 0x7F800000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v33) (TRef.of (T := ⟨S8192x8192, .f32⟩) main_v20) (TRef.of (T := ⟨S8192x8192, .f32⟩) main_call4_v1) (TRef.of (T := ⟨S8192x8192, .f32⟩) main_v39) select,
    nullary main_cst_12 (constant S_ .f32 0x7F800000#32),
    binary main_v39 main_cst_12 main_v40 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x49742400#32),
    TRef.unary (TRef.of (T := ⟨S_, .f32⟩) main_cst_13) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v38) (TRef.of (T := ⟨S8192, .f32⟩) main_v40) (TRef.of (T := ⟨S8192, .f32⟩) main_call5_v1) (TRef.of (T := ⟨S8192, .f32⟩) main_v41) select ]

/-- Operations 71 to 81: the row losses and their mean. -/
abbrev opsF : List (HloOp τ sig (Elt F)) :=
  [ nullary main_cst_14 (constant S_ .f32 0x3E99999A#32),
    unary main_cst_14 main_v42 (broadcastInDim S8192 ![] bcast_S_S8192 : (⟨S_, .f32⟩ : BufTy).Contents (Elt F) → (⟨S8192, .f32⟩ : BufTy).Contents (Elt F)),
    binary main_v42 main_v37 main_v43 (addf : (⟨S8192, .f32⟩ : BufTy).Contents (Elt F) → (⟨S8192, .f32⟩ : BufTy).Contents (Elt F) → (⟨S8192, .f32⟩ : BufTy).Contents (Elt F)),
    binary main_v43 main_v41 main_v44 (subf : (⟨S8192, .f32⟩ : BufTy).Contents (Elt F) → (⟨S8192, .f32⟩ : BufTy).Contents (Elt F) → (⟨S8192, .f32⟩ : BufTy).Contents (Elt F)),
    nullary main_cst_15 (constant S_ .f32 0x00000000#32),
    unary main_cst_15 main_v45 (broadcastInDim S8192 ![] bcast_S_S8192 : (⟨S_, .f32⟩ : BufTy).Contents (Elt F) → (⟨S8192, .f32⟩ : BufTy).Contents (Elt F)),
    binary main_v45 main_v44 main_v46 (maximumf : (⟨S8192, .f32⟩ : BufTy).Contents (Elt F) → (⟨S8192, .f32⟩ : BufTy).Contents (Elt F) → (⟨S8192, .f32⟩ : BufTy).Contents (Elt F)),
    nullary main_cst_16 (constant S_ .f32 0x00000000#32),
    binary main_v46 main_cst_16 main_v47 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_17 (constant S_ .f32 0x46000000#32),
    binary main_v47 main_cst_17 main_v48 (Host.divf : (⟨S_, .f32⟩ : BufTy).Contents (Elt F) → (⟨S_, .f32⟩ : BufTy).Contents (Elt F) → (⟨S_, .f32⟩ : BufTy).Contents (Elt F)) ]

variable (W : Valuation τ sig (Elt F))

/-! ## Each stretch, from any contents -/

theorem stretchA : after (opsA (F := F)) W (Proc.devRef .tc main_v13) = sqdV (W (Proc.devRef .tc main_arg0)) := by
  after_results_simp <;> rfl
theorem stretchA_arg1 : after (opsA (F := F)) W (Proc.devRef .tc main_arg1) = W (Proc.devRef .tc main_arg1) := by
  after_results_simp <;> rfl

theorem stretchB : after (opsB (F := F)) W (Proc.devRef .tc main_v20) = distOf (W (Proc.devRef .tc main_v13)) := by
  after_results_simp <;> rfl
theorem stretchB_arg1 : after (opsB (F := F)) W (Proc.devRef .tc main_arg1) = W (Proc.devRef .tc main_arg1) := by
  after_results_simp <;> rfl

theorem stretchC_pos : after (opsC (F := F)) W (Proc.devRef .tc main_v32) = posV (W (Proc.devRef .tc main_arg1)) := by
  after_results_simp <;> rfl
theorem stretchC_neg : after (opsC (F := F)) W (Proc.devRef .tc main_v33) = negV (W (Proc.devRef .tc main_arg1)) := by
  after_results_simp <;> rfl
theorem stretchC_v20 : after (opsC (F := F)) W (Proc.devRef .tc main_v20) = W (Proc.devRef .tc main_v20) := by
  after_results_simp <;> rfl

/-! The hardest positive, in four steps: the row disjunction of the mask; the masked distances; their row maximum; the
    choice between that maximum and zero. No step both crosses a called function and reduces along a row. -/

abbrev opsD1 : List (HloOp τ sig (Elt F)) :=
  [ nullary main_c_6 (constantI S_ 1 0#1),
    binary main_v32 main_c_6 main_v34 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)) ]
abbrev opsD2 : List (HloOp τ sig (Elt F)) :=
  [ nullary main_cst_7 (constant S_ .f32 0xFF800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v32) (TRef.of (T := ⟨S8192x8192, .f32⟩) main_v20) (TRef.of (T := ⟨S8192x8192, .f32⟩) main_call2_v1) (TRef.of (T := ⟨S8192x8192, .f32⟩) main_v35) select ]
abbrev opsD3 : List (HloOp τ sig (Elt F)) :=
  [ nullary main_cst_8 (constant S_ .f32 0xFF800000#32),
    binary main_v35 main_cst_8 main_v36 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]
abbrev opsD4 : List (HloOp τ sig (Elt F)) :=
  [ nullary main_cst_9 (constant S_ .f32 0x00000000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v34) (TRef.of (T := ⟨S8192, .f32⟩) main_v36) (TRef.of (T := ⟨S8192, .f32⟩) main_call3_v1) (TRef.of (T := ⟨S8192, .f32⟩) main_v37) select ]

theorem opsD_split : (opsD : List (HloOp τ sig (Elt F))) = opsD1 ++ opsD2 ++ opsD3 ++ opsD4 := rfl

theorem stepD1 : after (opsD1 (F := F)) W (Proc.devRef .tc main_v34)
    = Host.reduce IntOp.ori (W (Proc.devRef .tc main_v32)) (constantI S_ 1 0#1) reducesTo_S8192x8192_S8192_d1 h_S_ := by
  after_results_simp <;> rfl
theorem stepD1_v32 : after (opsD1 (F := F)) W (Proc.devRef .tc main_v32) = W (Proc.devRef .tc main_v32) := by
  after_results_simp <;> rfl
theorem stepD1_v20 : after (opsD1 (F := F)) W (Proc.devRef .tc main_v20) = W (Proc.devRef .tc main_v20) := by
  after_results_simp <;> rfl
theorem stepD2 : after (opsD2 (F := F)) W (Proc.devRef .tc main_v35)
    = select (W (Proc.devRef .tc main_v32)) (W (Proc.devRef .tc main_v20)) (broadcastInDim S8192x8192 ![] bcast_S_S8192x8192 (id (constant S_ .f32 0xFF800000#32))) := by
  after_results_simp <;> rfl
theorem stepD2_v34 : after (opsD2 (F := F)) W (Proc.devRef .tc main_v34) = W (Proc.devRef .tc main_v34) := by
  after_results_simp <;> rfl
theorem stepD3 : after (opsD3 (F := F)) W (Proc.devRef .tc main_v36)
    = Host.reduce FloatOps.maximumf (W (Proc.devRef .tc main_v35)) (constant S_ .f32 0xFF800000#32) reducesTo_S8192x8192_S8192_d1 h_S_ := by
  after_results_simp <;> rfl
theorem stepD3_v34 : after (opsD3 (F := F)) W (Proc.devRef .tc main_v34) = W (Proc.devRef .tc main_v34) := by
  after_results_simp <;> rfl
theorem stepD4 : after (opsD4 (F := F)) W (Proc.devRef .tc main_v37)
    = select (W (Proc.devRef .tc main_v34)) (W (Proc.devRef .tc main_v36)) (broadcastInDim S8192 ![] bcast_S_S8192 (id (constant S_ .f32 0x00000000#32))) := by
  after_results_simp <;> rfl

theorem stretchD : after (opsD (F := F)) W (Proc.devRef .tc main_v37)
    = apOf (W (Proc.devRef .tc main_v32)) (W (Proc.devRef .tc main_v20)) := by
  rw [opsD_split, StableHlo.after_append, StableHlo.after_append, StableHlo.after_append]
  rw [stepD4, stepD3_v34, stepD2_v34, stepD1, stepD3, stepD2, stepD1_v32, stepD1_v20]
  rfl
theorem stretchD_v33 : after (opsD (F := F)) W (Proc.devRef .tc main_v33) = W (Proc.devRef .tc main_v33) := by
  after_results_simp <;> rfl
theorem stretchD_v20 : after (opsD (F := F)) W (Proc.devRef .tc main_v20) = W (Proc.devRef .tc main_v20) := by
  after_results_simp <;> rfl

/-! The hardest negative, in the same four steps. -/

abbrev opsE1 : List (HloOp τ sig (Elt F)) :=
  [ nullary main_c_10 (constantI S_ 1 0#1),
    binary main_v33 main_c_10 main_v38 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)) ]
abbrev opsE2 : List (HloOp τ sig (Elt F)) :=
  [ nullary main_cst_11 (constant S_ .f32 0x7F800000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v33) (TRef.of (T := ⟨S8192x8192, .f32⟩) main_v20) (TRef.of (T := ⟨S8192x8192, .f32⟩) main_call4_v1) (TRef.of (T := ⟨S8192x8192, .f32⟩) main_v39) select ]
abbrev opsE3 : List (HloOp τ sig (Elt F)) :=
  [ nullary main_cst_12 (constant S_ .f32 0x7F800000#32),
    binary main_v39 main_cst_12 main_v40 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]
abbrev opsE4 : List (HloOp τ sig (Elt F)) :=
  [ nullary main_cst_13 (constant S_ .f32 0x49742400#32),
    TRef.unary (TRef.of (T := ⟨S_, .f32⟩) main_cst_13) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v38) (TRef.of (T := ⟨S8192, .f32⟩) main_v40) (TRef.of (T := ⟨S8192, .f32⟩) main_call5_v1) (TRef.of (T := ⟨S8192, .f32⟩) main_v41) select ]

theorem opsE_split : (opsE : List (HloOp τ sig (Elt F))) = opsE1 ++ opsE2 ++ opsE3 ++ opsE4 := rfl

theorem stepE1 : after (opsE1 (F := F)) W (Proc.devRef .tc main_v38)
    = Host.reduce IntOp.ori (W (Proc.devRef .tc main_v33)) (constantI S_ 1 0#1) reducesTo_S8192x8192_S8192_d1 h_S_ := by
  after_results_simp <;> rfl
theorem stepE1_v33 : after (opsE1 (F := F)) W (Proc.devRef .tc main_v33) = W (Proc.devRef .tc main_v33) := by
  after_results_simp <;> rfl
theorem stepE1_v20 : after (opsE1 (F := F)) W (Proc.devRef .tc main_v20) = W (Proc.devRef .tc main_v20) := by
  after_results_simp <;> rfl
theorem stepE2 : after (opsE2 (F := F)) W (Proc.devRef .tc main_v39)
    = select (W (Proc.devRef .tc main_v33)) (W (Proc.devRef .tc main_v20)) (broadcastInDim S8192x8192 ![] bcast_S_S8192x8192 (id (constant S_ .f32 0x7F800000#32))) := by
  after_results_simp <;> rfl
theorem stepE2_v38 : after (opsE2 (F := F)) W (Proc.devRef .tc main_v38) = W (Proc.devRef .tc main_v38) := by
  after_results_simp <;> rfl
theorem stepE3 : after (opsE3 (F := F)) W (Proc.devRef .tc main_v40)
    = Host.reduce FloatOps.minimumf (W (Proc.devRef .tc main_v39)) (constant S_ .f32 0x7F800000#32) reducesTo_S8192x8192_S8192_d1 h_S_ := by
  after_results_simp <;> rfl
theorem stepE3_v38 : after (opsE3 (F := F)) W (Proc.devRef .tc main_v38) = W (Proc.devRef .tc main_v38) := by
  after_results_simp <;> rfl
theorem stepE4 : after (opsE4 (F := F)) W (Proc.devRef .tc main_v41)
    = select (W (Proc.devRef .tc main_v38)) (W (Proc.devRef .tc main_v40)) (broadcastInDim S8192 ![] bcast_S_S8192 (id (constant S_ .f32 0x49742400#32))) := by
  after_results_simp <;> rfl

theorem stretchE : after (opsE (F := F)) W (Proc.devRef .tc main_v41)
    = anOf (W (Proc.devRef .tc main_v33)) (W (Proc.devRef .tc main_v20)) := by
  rw [opsE_split, StableHlo.after_append, StableHlo.after_append, StableHlo.after_append]
  rw [stepE4, stepE3_v38, stepE2_v38, stepE1, stepE3, stepE2, stepE1_v33, stepE1_v20]
  rfl
theorem stretchE_v37 : after (opsE (F := F)) W (Proc.devRef .tc main_v37) = W (Proc.devRef .tc main_v37) := by
  after_results_simp <;> rfl

theorem stretchF : after (opsF (F := F)) W (Proc.devRef .tc main_v48)
    = meanOf (W (Proc.devRef .tc main_v37)) (W (Proc.devRef .tc main_v41)) := by
  after_results_simp <;> rfl

/-! ## The six stretches in a row -/

/-- After all six stretches the result buffer holds the staged mean of the argument buffers' contents. -/
theorem after_stretches :
    after (opsA ++ opsB ++ opsC ++ opsD ++ opsE ++ opsF) W (Proc.devRef .tc main_v48)
      = meanV (W (Proc.devRef .tc main_arg0)) (W (Proc.devRef .tc main_arg1)) := by
  rw [StableHlo.after_append, StableHlo.after_append, StableHlo.after_append, StableHlo.after_append, StableHlo.after_append]
  rw [stretchF, stretchE_v37, stretchE, stretchD, stretchD_v33, stretchD_v20, stretchC_pos, stretchC_neg, stretchC_v20,
    stretchB, stretchB_arg1, stretchA, stretchA_arg1]
  rfl

end Cert.ReferenceIdeal.RefValue

end
-- ==== Proof.RefRun.lean ====
/-
  The run of the reference program. Its @main is a straight line of 81 host operations (a called function's operations
  standing in the call's place), so every weakly fair execution terminates with each buffer at the operations' fold over
  the launch contents; the list is the six stretches of the stretch module in a row, whose composition reads the result
  buffer as the staged mean of the two arguments, and that staged mean is, index by index, the specification's mean in
  the form that decides the empty cases by the masks. The arguments are written by no operation.
-/
import proofs.«132043_j3109556322825_2_alg».proof.Defs
import proofs.«132043_j3109556322825_2_alg».proof.Proof.Gen.ReferenceIdeal
import proofs.«132043_j3109556322825_2_alg».proof.Proof.RefChunks
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- @main's 81 operations, in order. -/
abbrev ops : List (HloOp τ sig (Elt F)) :=
  [ binary main_arg0 main_arg0 main_v0 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v0 main_cst main_v1 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    unary main_arg0 main_v7 ((transpose S256x8192 [1, 0] · transposes_S8192x256_S256x8192_1_0) : (⟨S8192x256, .f32⟩ : BufTy).Contents (Elt F) → (⟨S256x8192, .f32⟩ : BufTy).Contents (Elt F)),
    binary main_arg0 main_v7 main_v8 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x40000000#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    unary main_cst_1 main_v12 (broadcastInDim S8192x8192 ![] bcast_S_S8192x8192 : (⟨S_, .f32⟩ : BufTy).Contents (Elt F) → (⟨S8192x8192, .f32⟩ : BufTy).Contents (Elt F)),
    binary main_v11 main_v12 main_v13 (maximumf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    unary main_cst_2 main_v14 (broadcastInDim S8192x8192 ![] bcast_S_S8192x8192 : (⟨S_, .f32⟩ : BufTy).Contents (Elt F) → (⟨S8192x8192, .f32⟩ : BufTy).Contents (Elt F)),
    binary main_v13 main_v14 main_v15 (cmpf .ogt : (⟨S8192x8192, .f32⟩ : BufTy).Contents (Elt F) → (⟨S8192x8192, .f32⟩ : BufTy).Contents (Elt F) → (⟨S8192x8192, .i1⟩ : BufTy).Contents (Elt F)),
    nullary main_cst_3 (constant S_ .f32 0x00000000#32),
    unary main_cst_3 main_v16 (broadcastInDim S8192x8192 ![] bcast_S_S8192x8192 : (⟨S_, .f32⟩ : BufTy).Contents (Elt F) → (⟨S8192x8192, .f32⟩ : BufTy).Contents (Elt F)),
    binary main_v13 main_v16 main_v17 (cmpf .ogt : (⟨S8192x8192, .f32⟩ : BufTy).Contents (Elt F) → (⟨S8192x8192, .f32⟩ : BufTy).Contents (Elt F) → (⟨S8192x8192, .i1⟩ : BufTy).Contents (Elt F)),
    nullary main_cst_4 (constant S_ .f32 0x3F800000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v17) (TRef.of (T := ⟨S8192x8192, .f32⟩) main_v13) (TRef.of (T := ⟨S8192x8192, .f32⟩) main_call0_v1) (TRef.of (T := ⟨S8192x8192, .f32⟩) main_v18) select,
    unary main_v18 main_v19 (Host.sqrt : (⟨S8192x8192, .f32⟩ : BufTy).Contents (Elt F) → (⟨S8192x8192, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v15) (TRef.of (T := ⟨S8192x8192, .f32⟩) main_v19) (TRef.of (T := ⟨S8192x8192, .f32⟩) main_call1_v1) (TRef.of (T := ⟨S8192x8192, .f32⟩) main_v20) select,
    unary main_arg1 main_v21 (broadcastInDim S8192x1 ![0] bcast_S8192_S8192x1_0 : (⟨S8192, .i32⟩ : BufTy).Contents (Elt F) → (⟨S8192x1, .i32⟩ : BufTy).Contents (Elt F)),
    unary main_arg1 main_v22 (broadcastInDim S1x8192 ![1] bcast_S8192_S1x8192_1 : (⟨S8192, .i32⟩ : BufTy).Contents (Elt F) → (⟨S1x8192, .i32⟩ : BufTy).Contents (Elt F)),
    unary main_v21 main_v23 (broadcastInDim S8192x8192 ![0, 1] bcast_S8192x1_S8192x8192_0_1 : (⟨S8192x1, .i32⟩ : BufTy).Contents (Elt F) → (⟨S8192x8192, .i32⟩ : BufTy).Contents (Elt F)),
    unary main_v22 main_v24 (broadcastInDim S8192x8192 ![0, 1] bcast_S1x8192_S8192x8192_0_1 : (⟨S1x8192, .i32⟩ : BufTy).Contents (Elt F) → (⟨S8192x8192, .i32⟩ : BufTy).Contents (Elt F)),
    binary main_v23 main_v24 main_v25 (cmpi .eq : (⟨S8192x8192, .i32⟩ : BufTy).Contents (Elt F) → (⟨S8192x8192, .i32⟩ : BufTy).Contents (Elt F) → (⟨S8192x8192, .i1⟩ : BufTy).Contents (Elt F)),
    nullary main_v26 (iotaInDim S8192x8192 32 0),
    nullary main_v27 (iotaInDim S8192x8192 32 1),
    nullary main_c (constantI S_ 32 0#32),
    unary main_c main_v28 (broadcastInDim S8192x8192 ![] bcast_S_S8192x8192 : (⟨S_, .i32⟩ : BufTy).Contents (Elt F) → (⟨S8192x8192, .i32⟩ : BufTy).Contents (Elt F)),
    binary main_v26 main_v28 main_v29 (addi : (⟨S8192x8192, .i32⟩ : BufTy).Contents (Elt F) → (⟨S8192x8192, .i32⟩ : BufTy).Contents (Elt F) → (⟨S8192x8192, .i32⟩ : BufTy).Contents (Elt F)),
    binary main_v29 main_v27 main_v30 (cmpi .eq : (⟨S8192x8192, .i32⟩ : BufTy).Contents (Elt F) → (⟨S8192x8192, .i32⟩ : BufTy).Contents (Elt F) → (⟨S8192x8192, .i1⟩ : BufTy).Contents (Elt F)),
    unary main_v30 main_v31 (noti : (⟨S8192x8192, .i1⟩ : BufTy).Contents (Elt F) → (⟨S8192x8192, .i1⟩ : BufTy).Contents (Elt F)),
    binary main_v25 main_v31 main_v32 (andi : (⟨S8192x8192, .i1⟩ : BufTy).Contents (Elt F) → (⟨S8192x8192, .i1⟩ : BufTy).Contents (Elt F) → (⟨S8192x8192, .i1⟩ : BufTy).Contents (Elt F)),
    unary main_v25 main_v33 (noti : (⟨S8192x8192, .i1⟩ : BufTy).Contents (Elt F) → (⟨S8192x8192, .i1⟩ : BufTy).Contents (Elt F)),
    nullary main_c_6 (constantI S_ 1 0#1),
    binary main_v32 main_c_6 main_v34 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_cst_7 (constant S_ .f32 0xFF800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v32) (TRef.of (T := ⟨S8192x8192, .f32⟩) main_v20) (TRef.of (T := ⟨S8192x8192, .f32⟩) main_call2_v1) (TRef.of (T := ⟨S8192x8192, .f32⟩) main_v35) select,
    nullary main_cst_8 (constant S_ .f32 0xFF800000#32),
    binary main_v35 main_cst_8 main_v36 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_9 (constant S_ .f32 0x00000000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v34) (TRef.of (T := ⟨S8192, .f32⟩) main_v36) (TRef.of (T := ⟨S8192, .f32⟩) main_call3_v1) (TRef.of (T := ⟨S8192, .f32⟩) main_v37) select,
    nullary main_c_10 (constantI S_ 1 0#1),
    binary main_v33 main_c_10 main_v38 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_cst_11 (constant S_ .f32 0x7F800000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v33) (TRef.of (T := ⟨S8192x8192, .f32⟩) main_v20) (TRef.of (T := ⟨S8192x8192, .f32⟩) main_call4_v1) (TRef.of (T := ⟨S8192x8192, .f32⟩) main_v39) select,
    nullary main_cst_12 (constant S_ .f32 0x7F800000#32),
    binary main_v39 main_cst_12 main_v40 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x49742400#32),
    TRef.unary (TRef.of (T := ⟨S_, .f32⟩) main_cst_13) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v38) (TRef.of (T := ⟨S8192, .f32⟩) main_v40) (TRef.of (T := ⟨S8192, .f32⟩) main_call5_v1) (TRef.of (T := ⟨S8192, .f32⟩) main_v41) select,
    nullary main_cst_14 (constant S_ .f32 0x3E99999A#32),
    unary main_cst_14 main_v42 (broadcastInDim S8192 ![] bcast_S_S8192 : (⟨S_, .f32⟩ : BufTy).Contents (Elt F) → (⟨S8192, .f32⟩ : BufTy).Contents (Elt F)),
    binary main_v42 main_v37 main_v43 (addf : (⟨S8192, .f32⟩ : BufTy).Contents (Elt F) → (⟨S8192, .f32⟩ : BufTy).Contents (Elt F) → (⟨S8192, .f32⟩ : BufTy).Contents (Elt F)),
    binary main_v43 main_v41 main_v44 (subf : (⟨S8192, .f32⟩ : BufTy).Contents (Elt F) → (⟨S8192, .f32⟩ : BufTy).Contents (Elt F) → (⟨S8192, .f32⟩ : BufTy).Contents (Elt F)),
    nullary main_cst_15 (constant S_ .f32 0x00000000#32),
    unary main_cst_15 main_v45 (broadcastInDim S8192 ![] bcast_S_S8192 : (⟨S_, .f32⟩ : BufTy).Contents (Elt F) → (⟨S8192, .f32⟩ : BufTy).Contents (Elt F)),
    binary main_v45 main_v44 main_v46 (maximumf : (⟨S8192, .f32⟩ : BufTy).Contents (Elt F) → (⟨S8192, .f32⟩ : BufTy).Contents (Elt F) → (⟨S8192, .f32⟩ : BufTy).Contents (Elt F)),
    nullary main_cst_16 (constant S_ .f32 0x00000000#32),
    binary main_v46 main_cst_16 main_v47 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_17 (constant S_ .f32 0x46000000#32),
    binary main_v47 main_cst_17 main_v48 (Host.divf : (⟨S_, .f32⟩ : BufTy).Contents (Elt F) → (⟨S_, .f32⟩ : BufTy).Contents (Elt F) → (⟨S_, .f32⟩ : BufTy).Contents (Elt F)) ]

/-- The list is the six stretches, in a row. -/
theorem ops_split : (ops : List (HloOp τ sig (Elt F))) = opsA ++ opsB ++ opsC ++ opsD ++ opsE ++ opsF := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., nullary_bufs_sub .., binary_bufs_sub .., nullary_bufs_sub .., binary_bufs_sub ..⟩

/-- After the 81 operations the result buffer holds the staged mean of the argument buffers' contents. -/
theorem after_ops_result (W : Valuation τ sig (Elt F)) :
    after (ops (F := F)) W (Proc.devRef .tc main_v48) = meanV (W (Proc.devRef .tc main_arg0)) (W (Proc.devRef .tc main_arg1)) := by
  rw [ops_split]
  exact after_stretches W

set_option maxRecDepth 8192 in
set_option maxHeartbeats 4000000 in
/-- No operation writes the features. -/
theorem after_ops_arg0 (W : Valuation τ sig (Elt F)) :
    after (ops (F := F)) W (Proc.devRef .tc main_arg0) = W (Proc.devRef .tc main_arg0) := by
  after_results_simp <;> rfl

set_option maxRecDepth 8192 in
set_option maxHeartbeats 4000000 in
/-- No operation writes the labels. -/
theorem after_ops_arg1 (W : Valuation τ sig (Elt F)) :
    after (ops (F := F)) W (Proc.devRef .tc main_arg1) = W (Proc.devRef .tc main_arg1) := by
  after_results_simp <;> rfl

/-- On every device, for any float values, from any memory with zero counters: every weakly fair execution of @main terminates
    with the result buffer at the staged mean of the arguments' launch contents, and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = meanV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v48).trans (after_ops_result _),
      (h c main_arg0).trans (after_ops_arg0 _),
      (h c main_arg1).trans (after_ops_arg1 _)⟩)
    (run_seq scopedRefs_eq scopedSems_eq defs main (fun _ => ops) main_eq (fun _ => ops_sub) m ρ)

/-- At the ideal values: the result buffer ends at the specification's mean of the launched features and labels (the masks
    deciding the empty cases), the arguments unchanged. -/
theorem run_value (m : (ℓ : Loc nD τ sig) → Buf (Elt Ideal) ℓ) (ρ : Dev nD → PrngReg) :
    θ_run Cert.ReferenceIdeal.defs (onTc (τ := τ) (main (F := Ideal))) ⟨m, fun _ => 0, ρ⟩ (fun r => ∀ c : Dev nD,
      r.2.mem ((c.tc : Thread nD τ).loc main_v48)
        = (fun _ => Cert.TripletSpec.meanR (fun r k => m ((c.tc : Thread nD τ).loc main_arg0) (ix2 r k))
            (fun r => m ((c.tc : Thread nD τ).loc main_arg1) (ix1 r)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono (fun _ h c => ⟨(h c).1.trans (meanV_eq _ _), (h c).2⟩) (run_stages (F := Ideal) m ρ)

/-- The reference's frame: it runs to the end and leaves its arguments as launched. -/
theorem frame_value (m : (ℓ : Loc nD τ sig) → Buf (Elt Ideal) ℓ) (ρ : Dev nD → PrngReg) :
    θ_run Cert.ReferenceIdeal.defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono (fun _ h c => (h c).2) (run_value m ρ)

end Cert.ReferenceIdeal.RefValue

end
-- ==== Proof.Bridge.lean ====
/-
  The two forms of the triplet loss agree on finite features.

  The kernel's form decides "row r has no positive" by asking whether the masked maximum of the distances is still -inf,
  the fold's start; the reference's form asks the mask itself. With every feature a real number every squared norm and
  every Gram entry is a finite sum of products of reals, hence a real; the clipped squared distance is a non-negative
  real, and so is the distance: it is never -inf and never +inf. So the masked maximum, whose entries are a distance at a
  positive and -inf elsewhere, is -inf exactly when no column is a positive; and the masked minimum, a distance at a
  negative and +inf elsewhere, is +inf exactly when no column is a negative. The two spellings of the negatives' mask
  (same label gives +inf; different label gives the distance) are the same selection of a one-bit word and its complement.
  Hence the two hardest-positive values agree, the two hardest-negative values agree, the row losses agree, and so do
  the means.
-/
import Idealize.ShloMosaic.PureOps.Ideal.Laws
import Mathlib.Data.Finset.Fold
import proofs.«132043_j3109556322825_2_alg».proof.Proof.Spec

noncomputable section

namespace Cert.TripletSpec

open Idealize.ShloMosaic

/-! ## The literal words that matter -/

theorem w0_eq : w0 = 0 := Ideal.ofBits_zero_f32
theorem wNeg_eq : wNeg = ⊥ := by simp [wNeg, Ideal.ofBits, Ideal.ieee]
theorem wPos_eq : wPos = ⊤ := by simp [wPos, Ideal.ofBits, Ideal.ieee]

/-- An extended real that is a real number. -/
def IsR (y : EReal) : Prop := ∃ a : ℝ, y = (a : EReal)

theorem w2_isR : IsR w2 := by
  have h1 : ¬ (BitVec.extractLsb' 23 8 (0x40000000#32)).toNat = 2 ^ 8 - 1 := by decide
  unfold IsR w2
  simp only [Ideal.ofBits, Ideal.ieee, if_neg h1]
  split_ifs <;> exact ⟨_, rfl⟩

theorem IsR.add {y z : EReal} (hy : IsR y) (hz : IsR z) : IsR (y + z) := by
  obtain ⟨a, rfl⟩ := hy; obtain ⟨b, rfl⟩ := hz; exact ⟨a + b, (EReal.coe_add a b).symm⟩
theorem IsR.sub {y z : EReal} (hy : IsR y) (hz : IsR z) : IsR (y - z) := by
  obtain ⟨a, rfl⟩ := hy; obtain ⟨b, rfl⟩ := hz; exact ⟨a - b, (EReal.coe_sub a b).symm⟩
theorem IsR.mul {y z : EReal} (hy : IsR y) (hz : IsR z) : IsR (y * z) := by
  obtain ⟨a, rfl⟩ := hy; obtain ⟨b, rfl⟩ := hz; exact ⟨a * b, (EReal.coe_mul a b).symm⟩
theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-! ## The selections and comparisons, as if-then-else -/

theorem select_ofBool (p : Prop) [Decidable p] {α : Type} (a b : α) :
    Scalar.select (BitVec.ofBool (decide p)) a b = if p then a else b := by
  unfold Scalar.select
  by_cases h : p <;> simp [h]

theorem cmp_ogt (a b : EReal) : Ideal.cmp .ogt a b = BitVec.ofBool (decide (b < a)) := rfl
theorem cmp_oeq (a b : EReal) : Ideal.cmp .oeq a b = BitVec.ofBool (decide (a = b)) := rfl

theorem select_one {α : Type} (a b : α) : Scalar.select 1#1 a b = a := by simp [Scalar.select]
theorem select_zero {α : Type} (a b : α) : Scalar.select 0#1 a b = b := by simp [Scalar.select]
theorem select_of_ne_one {α : Type} {c : BitVec 1} (h : c ≠ 1#1) (a b : α) : Scalar.select c a b = b := by
  rcases BitVec.eq_zero_or_eq_one c with h0 | h1
  · rw [h0, select_zero]
  · exact absurd h1 h

theorem not_eq_one_iff (b : BitVec 1) : ~~~ b = 1#1 ↔ b ≠ 1#1 := by
  rcases BitVec.eq_zero_or_eq_one b with h | h <;> subst h <;> decide

theorem or_eq_one_iff (a b : BitVec 1) : a ||| b = 1#1 ↔ a = 1#1 ∨ b = 1#1 := by
  rcases BitVec.eq_zero_or_eq_one a with h | h <;> rcases BitVec.eq_zero_or_eq_one b with h' | h' <;> subst h <;> subst h' <;> decide

/-! ## The three folds -/

theorem fold_or_eq_one {ι : Type} (s : Finset ι) (f : ι → BitVec 1) :
    Finset.fold (β := BitVec 1) (· ||| ·) 0#1 f s = 1#1 ↔ ∃ c ∈ s, f c = 1#1 := by
  classical
  induction s using Finset.induction_on with
  | empty => simp
  | insert a s ha ih =>
    rw [Finset.fold_insert ha, or_eq_one_iff, ih]
    simp [Finset.mem_insert]

theorem fold_max_eq_bot {ι : Type} (s : Finset ι) (g : ι → EReal) : s.fold max ⊥ g = ⊥ ↔ ∀ c ∈ s, g c = ⊥ := by
  rw [← le_bot_iff, Finset.fold_max_le]
  simp

theorem fold_min_eq_top {ι : Type} (s : Finset ι) (g : ι → EReal) : s.fold min ⊤ g = ⊤ ↔ ∀ c ∈ s, g c = ⊤ := by
  rw [← top_le_iff, Finset.le_fold_min]
  simp

/-! ## Finite features give real distances -/

section Real
variable (x : Fin 8192 → Fin 256 → EReal) (lab : Fin 8192 → BitVec 32)
variable (hx : ∀ r k, IsR (x r k))
include hx

theorem sqn_isR (r : Fin 8192) : IsR (sqn x r) := IsR.sum _ _ fun k _ => (hx r k).mul (hx r k)
theorem gram_isR (r c : Fin 8192) : IsR (gram x r c) := IsR.sum _ _ fun k _ => (hx r k).mul (hx c k)

/-- The clipped squared distance is a non-negative real. -/
theorem sqd_real (r c : Fin 8192) : ∃ m : ℝ, 0 ≤ m ∧ sqd x r c = (m : EReal) := by
  obtain ⟨a, ha⟩ := ((sqn_isR x hx r).add (sqn_isR x hx c)).sub (w2_isR.mul (gram_isR x hx r c))
  refine ⟨max a 0, le_max_right _ _, ?_⟩
  unfold sqd
  rw [ha, w0_eq, ← EReal.coe_zero]
  exact (EReal.coe_strictMono.monotone.map_max).symm

/-- The distance is a non-negative real. -/
theorem dist_real (r c : Fin 8192) : ∃ d : ℝ, 0 ≤ d ∧ dist x r c = (d : EReal) := by
  obtain ⟨m, hm0, hm⟩ := sqd_real x hx r c
  unfold dist
  rw [hm, w0_eq, cmp_ogt, select_ofBool, select_ofBool]
  by_cases h : (0 : EReal) < (m : EReal)
  · rw [if_pos h, if_pos h, Ideal.sqrt_coe, if_neg (not_lt.mpr hm0)]
    exact ⟨Real.sqrt m, Real.sqrt_nonneg m, rfl⟩
  · rw [if_neg h]
    exact ⟨0, le_refl _, rfl⟩

theorem dist_ne_bot (r c : Fin 8192) : dist x r c ≠ ⊥ := by
  obtain ⟨d, -, hd⟩ := dist_real x hx r c; rw [hd]; exact EReal.coe_ne_bot d
theorem dist_ne_top (r c : Fin 8192) : dist x r c ≠ ⊤ := by
  obtain ⟨d, -, hd⟩ := dist_real x hx r c; rw [hd]; exact EReal.coe_ne_top d

/-! ## Row by row -/

/-- The masked maximum is still -inf exactly when no column is a positive. -/
theorem apRaw_eq_wNeg_iff (r : Fin 8192) : apRaw x lab r = wNeg ↔ ¬ anyPos lab r = 1#1 := by
  unfold apRaw anyPos
  rw [wNeg_eq, fold_max_eq_bot, fold_or_eq_one]
  constructor
  · rintro h ⟨c, hc, hp⟩
    have := h c hc
    rw [hp, select_one] at this
    exact dist_ne_bot x hx r c this
  · intro h c hc
    exact select_of_ne_one (fun hp => h ⟨c, hc, hp⟩) _ _

theorem apK_eq_apR (r : Fin 8192) : apK x lab r = apR x lab r := by
  have key := apRaw_eq_wNeg_iff x lab hx r
  unfold apK apR
  rw [cmp_oeq, select_ofBool]
  by_cases h : anyPos lab r = 1#1
  · rw [if_neg (fun e => key.mp e h), h, select_one]
  · rw [if_pos (key.mpr h), select_of_ne_one h]

/-- The two spellings of the negatives' mask give the same masked minimum. -/
theorem anRawK_eq_anRawR (r : Fin 8192) : anRawK x lab r = anRawR x lab r := by
  unfold anRawK anRawR
  refine Finset.fold_congr fun c _ => ?_
  rcases BitVec.eq_zero_or_eq_one (same lab r c) with h | h <;> rw [h] <;> rfl

/-- The masked minimum is still +inf exactly when no column is a negative. -/
theorem anRawR_eq_wPos_iff (r : Fin 8192) : anRawR x lab r = wPos ↔ ¬ anyNeg lab r = 1#1 := by
  unfold anRawR anyNeg
  rw [wPos_eq, fold_min_eq_top, fold_or_eq_one]
  constructor
  · rintro h ⟨c, hc, hp⟩
    have := h c hc
    rw [hp, select_one] at this
    exact dist_ne_top x hx r c this
  · intro h c hc
    exact select_of_ne_one (fun hp => h ⟨c, hc, hp⟩) _ _

theorem anK_eq_anR (r : Fin 8192) : anK x lab r = anR x lab r := by
  have key := anRawR_eq_wPos_iff x lab hx r
  unfold anK anR
  rw [anRawK_eq_anRawR x lab hx r]
  rw [cmp_oeq, select_ofBool]
  by_cases h : anyNeg lab r = 1#1
  · rw [if_neg (fun e => key.mp e h), h, select_one]
  · rw [if_pos (key.mpr h), select_of_ne_one h]

theorem lossK_eq_lossR (r : Fin 8192) : lossK x lab r = lossR x lab r := by
  unfold lossK lossR
  rw [apK_eq_apR x lab hx r, anK_eq_anR x lab hx r]

end Real

/-- With every feature finite, the kernel's form of the mean loss and the reference's are one value. -/
theorem meanK_eq_meanR (x : Fin 8192 → Fin 256 → EReal) (lab : Fin 8192 → BitVec 32)
    (hx : ∀ r k, ∃ a : ℝ, x r k = (a : EReal)) : meanK x lab = meanR x lab := by
  unfold meanK meanR
  rw [Finset.sum_congr rfl fun r _ => lossK_eq_lossR x lab hx r]

end Cert.TripletSpec

end
-- ==== Proof.Finite.lean ====
/-
  From the precondition to real features.

  The precondition is the conjunction, over every entry of the feature matrix, of the test |x| < +inf, where |x| is max x (-x)
  and +inf the word 0x7F800000. A conjunction of one-bit words that is 1 has every conjunct 1; and an extended real whose
  absolute value is below +inf is neither -inf (its absolute value is +inf) nor +inf: it is a real number.
-/
import Idealize.ShloMosaic.Lib.ReduceAll
import Idealize.ShloMosaic.Lib.ValueIdx
import Idealize.ShloMosaic.PureOps.Ideal
import proofs.«132043_j3109556322825_2_alg».proof.Pre_finite_inputs

noncomputable section

namespace Cert.TripletSpec

open Idealize.ShloMosaic

/-- The shape of rank 0 has one index. -/
instance : Subsingleton Cert.Pre_finite_inputs.S_.Idx := ⟨fun _ _ => funext fun d => d.elim0⟩

/-- An extended real whose absolute value is below +inf is a real number. -/
theorem real_of_abs_lt_top (y : EReal)
    (h : Ideal.cmp .olt (max y (-y)) (Ideal.ofBits .f32 0x7F800000#32) = 1#1) : ∃ a : ℝ, y = (a : EReal) := by
  have htop : Ideal.ofBits .f32 0x7F800000#32 = ⊤ := by simp [Ideal.ofBits, Ideal.ieee]
  rw [htop] at h
  unfold Ideal.cmp at h
  induction y using EReal.rec with
  | bot => simp at h
  | coe a => exact ⟨a, rfl⟩
  | top => simp at h

/-- Where the precondition holds every feature is a real number. -/
theorem real_of_pre [Cert.Pre_finite_inputs.Facts] (feat : FVec Ideal Cert.Pre_finite_inputs.S8192x256 .f32)
    (lab : IVec Cert.Pre_finite_inputs.S8192 32)
    (h : Cert.Pre_finite_inputs.fn (F := Ideal) feat lab = fun _ => 1#1) : ∀ i, ∃ a : ℝ, feat i = (a : EReal) := by
  intro i
  have h0 := congrFun h ValueIdx.ix0
  dsimp only [Cert.Pre_finite_inputs.fn] at h0
  have hi := Host.reduce_andi_all _ _ _ _ _ h0 i
  exact real_of_abs_lt_top (feat i) hi

end Cert.TripletSpec

end
-- ==== Proof.lean ====
/-
  The batch-hard triplet loss: a tiled kernel against its jnp reference, equal on the extended reals for finite features.

  Both programs form the pairwise distances dist[r, c] of the 8192 feature rows from the squared norms and the Gram
  matrix, take per row the largest distance over the positives (same label, another row) and the smallest over the
  negatives (another label), and average max 0 (margin + hardest positive - hardest negative) over the rows. They differ
  in how a row WITHOUT positives (or negatives) is told: the kernel asks whether the masked maximum is still -inf (the
  masked minimum still +inf), the reference asks the mask. Every distance of finite features is a non-negative real, so
  the masked maximum is -inf exactly when the mask is empty, and the masked minimum +inf exactly when its mask is: the
  two answers agree row by row, and so do the means.

  The kernel's run: 32 grid points, point t reading rows [256 t, 256 t + 256) of the features and of the label column
  beside the whole feature matrix and label row, and writing the 256 losses of those rows; the feature matrix is the array
  of two of the kernel's windows, which hold half of it each. The frames of the two printed kernels are this run with the
  result dropped; the reference's is its own run.
-/
import proofs.«132043_j3109556322825_2_alg».proof.Defs
import proofs.«132043_j3109556322825_2_alg».proof.Proof.Gen.Kernel
import proofs.«132043_j3109556322825_2_alg».proof.Proof.Gen.KernelIdeal
import proofs.«132043_j3109556322825_2_alg».proof.Proof.Gen.ReferenceIdeal
import proofs.«132043_j3109556322825_2_alg».proof.Proof.Gen.Pre_finite_inputs
import proofs.«132043_j3109556322825_2_alg».proof.Proof.BitsRun
import proofs.«132043_j3109556322825_2_alg».proof.Proof.IdealFinal
import proofs.«132043_j3109556322825_2_alg».proof.Proof.RefRun
import proofs.«132043_j3109556322825_2_alg».proof.Proof.Bridge
import proofs.«132043_j3109556322825_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel (hKernel := Cert.Kernel.Gen.facts) (hPre_finite_inputs := Cert.Pre_finite_inputs.Gen.facts) :=
  fun m ρ _ => Cert.Kernel.Hand.frame m ρ

theorem frame_pi : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_value m ρ)

/-- The ideal pass rewrote no operation: nothing to preserve. -/
theorem preserves : Cert.preserves_Kernel_KernelIdeal := trivial

/-- Both idealized programs end at the mean of the row losses of the same features and labels: the kernel's at the form
    that tells an empty mask by the extremum's value, the reference's at the form that asks the mask; the precondition
    makes every feature a real, where the two forms agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.TripletSpec.meanK (Cert.KernelIdeal.Hand.featOf m c) (Cert.KernelIdeal.Hand.labOf m c),
    Cert.KernelIdeal.Hand.run_value m ρ, ?_⟩
  refine (θ_run Cert.ReferenceIdeal.defs _ _).mono (fun _ h c => ⟨(h c).1.trans ?_, (h c).2⟩)
    (Cert.ReferenceIdeal.RefValue.run_value m' ρ')
  rw [(hagree c).1, (hagree c).2]
  have hx : ∀ r k, ∃ a : ℝ, Cert.KernelIdeal.Hand.featOf m c r k = (a : EReal) := fun r k =>
    Cert.TripletSpec.real_of_pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (hpre c) (ix2 r k)
  exact funext fun _ => (Cert.TripletSpec.meanK_eq_meanR _ _ hx).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
